-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x32 : Shape := ⟨2, ![512, 32]⟩
abbrev S32x16 : Shape := ⟨2, ![32, 16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x32 : S_.BroadcastsInDim S512x32 (![] : Fin 0 → Fin S512x32.rank)
  reducesTo_S512x32_S_d0_1 : S512x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x32 .f32) (main_arg3 : FVec F S32x16 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x32 : Shape := ⟨2, ![512, 32]⟩
abbrev S32x16 : Shape := ⟨2, ![32, 16]⟩
abbrev S8192x32 : Shape := ⟨2, ![8192, 32]⟩
abbrev S1024x512 : Shape := ⟨2, ![1024, 512]⟩
abbrev S1024x32 : Shape := ⟨2, ![1024, 32]⟩
abbrev S512x8192 : Shape := ⟨2, ![512, 8192]⟩
abbrev S8192x16 : Shape := ⟨2, ![8192, 16]⟩
abbrev S1024x16 : Shape := ⟨2, ![1024, 16]⟩
abbrev S512x16 : Shape := ⟨2, ![512, 16]⟩
abbrev S2048x16 : Shape := ⟨2, ![2048, 16]⟩
abbrev S2048x2048 : Shape := ⟨2, ![2048, 2048]⟩
abbrev S16x2048 : Shape := ⟨2, ![16, 2048]⟩

abbrev nBuf : Space → Nat
  | .hbm => 9
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x32, .f32⟩
  | .hbm, ⟨3, _⟩ => ⟨S32x16, .f32⟩
  | .hbm, ⟨4, _⟩ => ⟨S8192x32, .f32⟩
  | .hbm, ⟨5, _⟩ => ⟨S8192x32, .f32⟩
  | .hbm, ⟨6, _⟩ => ⟨S8192x16, .f32⟩
  | .hbm, ⟨7, _⟩ => ⟨S8192x16, .f32⟩
  | .hbm, ⟨8, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x32, .f32⟩
  | .local _ .vmem, ⟨3, _⟩ => ⟨S1024x32, .f32⟩
  | .local _ .vmem, ⟨4, _⟩ => ⟨S1024x32, .f32⟩
  | .local _ .vmem, ⟨5, _⟩ => ⟨S512x8192, .f32⟩
  | .local _ .vmem, ⟨6, _⟩ => ⟨S512x8192, .f32⟩
  | .local _ .vmem, ⟨7, _⟩ => ⟨S8192x32, .f32⟩
  | .local _ .vmem, ⟨8, _⟩ => ⟨S512x32, .f32⟩
  | .local _ .vmem, ⟨9, _⟩ => ⟨S512x32, .f32⟩
  | .local _ .vmem, ⟨10, _⟩ => ⟨S1024x32, .f32⟩
  | .local _ .vmem, ⟨11, _⟩ => ⟨S1024x32, .f32⟩
  | .local _ .vmem, ⟨12, _⟩ => ⟨S32x16, .f32⟩
  | .local _ .vmem, ⟨13, _⟩ => ⟨S1024x16, .f32⟩
  | .local _ .vmem, ⟨14, _⟩ => ⟨S1024x16, .f32⟩
  | .local _ .vmem, ⟨15, _⟩ => ⟨S512x8192, .f32⟩
  | .local _ .vmem, ⟨16, _⟩ => ⟨S512x8192, .f32⟩
  | .local _ .vmem, ⟨17, _⟩ => ⟨S8192x16, .f32⟩
  | .local _ .vmem, ⟨18, _⟩ => ⟨S512x16, .f32⟩
  | .local _ .vmem, ⟨19, _⟩ => ⟨S512x16, .f32⟩
  | .local _ .vmem, ⟨20, _⟩ => ⟨S2048x16, .f32⟩
  | .local _ .vmem, ⟨21, _⟩ => ⟨S2048x16, .f32⟩
  | .local _ .vmem, ⟨22, _⟩ => ⟨S2048x16, .f32⟩
  | .local _ .vmem, ⟨23, _⟩ => ⟨S2048x16, .f32⟩
  | .local _ .vmem, ⟨24, _⟩ => ⟨S2048x2048, .f32⟩
  | .local _ .vmem, ⟨25, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  inb_S1024x512_S1024x512_0_0 : ∀ a, (![0, 0] : Fin 2 → Nat) a + S1024x512.size a ≤ S1024x512.size a
  h_S1024x512 : 0 < S1024x512.numel
  inb_S512x32_S512x32_0_0 : ∀ a, (![0, 0] : Fin 2 → Nat) a + S512x32.size a ≤ S512x32.size a
  h_S512x32 : 0 < S512x32.numel
  inb_S1024x32_S1024x32_0_0 : ∀ a, (![0, 0] : Fin 2 → Nat) a + S1024x32.size a ≤ S1024x32.size a
  h_S1024x32 : 0 < S1024x32.numel
  inb_S512x8192_S512x8192_0_0 : ∀ a, (![0, 0] : Fin 2 → Nat) a + S512x8192.size a ≤ S512x8192.size a
  h_S512x8192 : 0 < S512x8192.numel
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  shapeCasts_S1024x32_S1024x32 : S1024x32.ShapeCasts S1024x32
  inb_S32x16_S32x16_0_0 : ∀ a, (![0, 0] : Fin 2 → Nat) a + S32x16.size a ≤ S32x16.size a
  h_S32x16 : 0 < S32x16.numel
  inb_S1024x16_S1024x16_0_0 : ∀ a, (![0, 0] : Fin 2 → Nat) a + S1024x16.size a ≤ S1024x16.size a
  h_S1024x16 : 0 < S1024x16.numel
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S512x16_S512x16_0_0 : ∀ a, (![0, 0] : Fin 2 → Nat) a + S512x16.size a ≤ S512x16.size a
  h_S512x16 : 0 < S512x16.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  transposes_S2048x16_p1_0_S16x2048 : S2048x16.Transposes [1, 0] S16x2048
  inb_S2048x2048_S2048x2048_0_0 : ∀ a, (![0, 0] : Fin 2 → Nat) a + S2048x2048.size a ≤ S2048x2048.size a
  h_S2048x2048 : 0 < S2048x2048.numel
  dot_S1024x512_S512x32_S1024x32_1_0_0_1_n_n_wf : DotDims.WF S1024x512 S512x32 S1024x32 [1] [0] [0] [1] [] []
  dot_S512x8192_S8192x32_S512x32_1_0_0_1_n_n_wf : DotDims.WF S512x8192 S8192x32 S512x32 [1] [0] [0] [1] [] []
  dot_S1024x32_S32x16_S1024x16_1_0_0_1_n_n_wf : DotDims.WF S1024x32 S32x16 S1024x16 [1] [0] [0] [1] [] []
  dot_S512x8192_S8192x16_S512x16_1_0_0_1_n_n_wf : DotDims.WF S512x8192 S8192x16 S512x16 [1] [0] [0] [1] [] []
  dot_S2048x16_S16x2048_S2048x2048_1_0_0_1_n_n_wf : DotDims.WF S2048x16 S16x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S8192x32.size a
  hwx0_2 : ∀ i : grid0.Coords, EltTy.bits .f32 = 32 ∨ (Rect.block (s := S8192x32) S1024x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .f32 = 32 ∨ (Rect.block (s := S8192x8192) S512x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x32.size a ≤ S8192x32.size a
  hwx1_1 : ∀ i : grid1.Coords, EltTy.bits .f32 = 32 ∨ (Rect.block (s := S8192x32) S8192x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x32.size a ≤ S8192x32.size a
  hwx1_2 : ∀ i : grid1.Coords, EltTy.bits .f32 = 32 ∨ (Rect.block (s := S8192x32) S512x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x32.size a ≤ S8192x32.size a
  hwx2_0 : ∀ i : grid2.Coords, EltTy.bits .f32 = 32 ∨ (Rect.block (s := S8192x32) S1024x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x16.size a ≤ S8192x16.size a
  hwx2_2 : ∀ i : grid2.Coords, EltTy.bits .f32 = 32 ∨ (Rect.block (s := S8192x16) S1024x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x8192.size a ≤ S8192x8192.size a
  hwx3_0 : ∀ i : grid3.Coords, EltTy.bits .f32 = 32 ∨ (Rect.block (s := S8192x8192) S512x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x16.size a ≤ S8192x16.size a
  hwx3_1 : ∀ i : grid3.Coords, EltTy.bits .f32 = 32 ∨ (Rect.block (s := S8192x16) S8192x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x16.size a ≤ S8192x16.size a
  hwx3_2 : ∀ i : grid3.Coords, EltTy.bits .f32 = 32 ∨ (Rect.block (s := S8192x16) S512x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x16.size a ≤ S8192x16.size a
  hwx4_0 : ∀ i : grid4.Coords, EltTy.bits .f32 = 32 ∨ (Rect.block (s := S8192x16) S2048x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x16.size a ≤ S8192x16.size a
  hwx4_1 : ∀ i : grid4.Coords, EltTy.bits .f32 = 32 ∨ (Rect.block (s := S8192x16) S2048x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x2048.size a ≤ S8192x8192.size a
  hwx4_2 : ∀ i : grid4.Coords, EltTy.bits .f32 = 32 ∨ (Rect.block (s := S8192x8192) S2048x2048.size (cc4_transform_2 i) (hinb4_2 i)).WholeWords (EltTy.packing .f32)

variable [Facts₀]

def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S512x8192_S8192x32_S512x32_1_0_0_1_n_n : DotDims S512x8192 S8192x32 S512x32 where
  lhsContracting := [1]
  rhsContracting := [0]
  lhsNonContracting := [0]
  rhsNonContracting := [1]
  lhsBatch := []
  rhsBatch := []
  wf := dot_S512x8192_S8192x32_S512x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S512x8192_S8192x16_S512x16_1_0_0_1_n_n : DotDims S512x8192 S8192x16 S512x16 where
  lhsContracting := [1]
  rhsContracting := [0]
  lhsNonContracting := [0]
  rhsNonContracting := [1]
  lhsBatch := []
  rhsBatch := []
  wf := dot_S512x8192_S8192x16_S512x16_1_0_0_1_n_n_wf
def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S1024x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S512x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S8192x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S512x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v3) S2048x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S2048x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S2048x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x32 : Shape := ⟨2, ![512, 32]⟩
abbrev S32x16 : Shape := ⟨2, ![32, 16]⟩
abbrev S8192x32 : Shape := ⟨2, ![8192, 32]⟩
abbrev S_ : Shape := ⟨0, ![]⟩
abbrev S8192x16 : Shape := ⟨2, ![8192, 16]⟩
abbrev S16x8192 : Shape := ⟨2, ![16, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x32, .f32⟩
  | .hbm, ⟨3, _⟩ => ⟨S32x16, .f32⟩
  | .hbm, ⟨4, _⟩ => ⟨S8192x32, .f32⟩
  | .hbm, ⟨5, _⟩ => ⟨S8192x32, .f32⟩
  | .hbm, ⟨6, _⟩ => ⟨S_, .f32⟩
  | .hbm, ⟨7, _⟩ => ⟨S8192x32, .f32⟩
  | .hbm, ⟨8, _⟩ => ⟨S8192x32, .f32⟩
  | .hbm, ⟨9, _⟩ => ⟨S8192x16, .f32⟩
  | .hbm, ⟨10, _⟩ => ⟨S8192x16, .f32⟩
  | .hbm, ⟨11, _⟩ => ⟨S_, .f32⟩
  | .hbm, ⟨12, _⟩ => ⟨S8192x16, .f32⟩
  | .hbm, ⟨13, _⟩ => ⟨S8192x16, .f32⟩
  | .hbm, ⟨14, _⟩ => ⟨S16x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_cst : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S8192x32 : S_.BroadcastsInDim S8192x32 (![] : Fin 0 → Fin S8192x32.rank)
  bcast_S_S8192x16 : S_.BroadcastsInDim S8192x16 (![] : Fin 0 → Fin S8192x16.rank)
  transposes_S8192x16_S16x8192_1_0 : S8192x16.Transposes [1, 0] S16x8192
  bcast_S_S8192x8192 : S_.BroadcastsInDim S8192x8192 (![] : Fin 0 → Fin S8192x8192.rank)
  dot_S8192x512_S512x32_S8192x32_1_0_0_1_n_n_wf : DotDims.WF S8192x512 S512x32 S8192x32 [1] [0] [0] [1] [] []
  dot_S8192x8192_S8192x32_S8192x32_1_0_0_1_n_n_wf : DotDims.WF S8192x8192 S8192x32 S8192x32 [1] [0] [0] [1] [] []
  dot_S8192x32_S32x16_S8192x16_1_0_0_1_n_n_wf : DotDims.WF S8192x32 S32x16 S8192x16 [1] [0] [0] [1] [] []
  dot_S8192x8192_S8192x16_S8192x16_1_0_0_1_n_n_wf : DotDims.WF S8192x8192 S8192x16 S8192x16 [1] [0] [0] [1] [] []
  dot_S8192x16_S16x8192_S8192x8192_1_0_0_1_n_n_wf : DotDims.WF S8192x16 S16x8192 S8192x8192 [1] [0] [0] [1] [] []

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.Bits.Region0.lean ====
/-
  Region 0: a 1024-row block of X times the whole of W1 (512×32), one block of X·W1 per grid point.
  The body's run on whole staging buffers and the pipeline's proof data, at any float instance, stated at the
  region's entry contents `V`.
-/
import proofs.«169699_j12910671692500_1_alg».proof.Proof.Gen.Kernel.Launch
import proofs.«169699_j12910671692500_1_alg».proof.Proof.Gen.Kernel.Skeleton
import proofs.«169699_j12910671692500_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds its block at every point, fetched there or carried from an earlier one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body reads and writes each staging buffer whole. -/
abbrev rA0 : Rect S1024x512 := Rect.unit (s := S1024x512) ![0, 0] S1024x512.size inb_S1024x512_S1024x512_0_0
abbrev rB0 : Rect S512x32 := Rect.unit (s := S512x32) ![0, 0] S512x32.size inb_S512x32_S512x32_0_0
abbrev rC0 : Rect S1024x32 := Rect.unit (s := S1024x32) ![0, 0] S1024x32.size inb_S1024x32_S1024x32_0_0

/-- What the body leaves in the result's staging buffer: its one whole-buffer store of the payload of the two loads. -/
def out0_2 (x0 : Vec F S1024x512 .f32) (x1 : Vec F S512x32 .f32) : Vec F S1024x32 .f32 :=
  View.canon [⟨rC0, k0_pay1 (View.ld x0 rA0) (View.ld x1 rB0)⟩]

/-- The one store covers the buffer. -/
theorem cover0_2 (p0 : Vec F S1024x32 .f32) (y : S1024x32.Idx) :
    ∃ pc ∈ ([⟨rC0, p0⟩] : List (View.Piece (Elt F) S1024x32 .f32)), y ∈ pc.1.set :=
  View.cover_of_tiled [⟨rC0, p0⟩] S1024x32.size (by rfl) y

set_option maxHeartbeats 1000000 in
/-- The body on whole staging buffers: the operands' buffers are left as found, the result's holds `out0_2` of them. -/
theorem sound_kernel0 (c : Dev nD) (E : Set ℕ) (i : grid0.Coords) (arg1 : Memref sig .tc .vmem S1024x512 .f32) (harg1 : arg1.IsWhole) (arg2 : Memref sig .tc .vmem S512x32 .f32) (harg2 : arg2.IsWhole) (arg3 : Memref sig .tc .vmem S1024x32 .f32) (harg3 : arg3.IsWhole)
    (x0 : Vec F S1024x512 .f32) (x1 : Vec F S512x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__row_matmul_kernel i arg1 harg1 arg2 harg2 arg3 harg3) K := by
  simp only [cc0__row_matmul_kernel_eq_skeleton]; unfold cc0__row_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    operand's buffer at its block and the result's at `out0_2` of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region1.lean ====
/-
  Region 1: a 512-row block of adj times the whole of X·W1 (8192×32), clamped below at zero: one block of
  relu(adj·(X·W1)) per grid point. The body's run on whole staging buffers and the pipeline's proof data, at any
  float instance, stated at the region's entry contents `V`.
-/
import proofs.«169699_j12910671692500_1_alg».proof.Proof.Gen.Kernel.Launch
import proofs.«169699_j12910671692500_1_alg».proof.Proof.Gen.Kernel.Skeleton
import proofs.«169699_j12910671692500_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds its block at every point, fetched there or carried from an earlier one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body reads and writes each staging buffer whole. -/
abbrev rA1 : Rect S512x8192 := Rect.unit (s := S512x8192) ![0, 0] S512x8192.size inb_S512x8192_S512x8192_0_0
abbrev rB1 : Rect S8192x32 := Rect.unit (s := S8192x32) ![0, 0] S8192x32.size inb_S8192x32_S8192x32_0_0
abbrev rC1 : Rect S512x32 := Rect.unit (s := S512x32) ![0, 0] S512x32.size inb_S512x32_S512x32_0_0

/-- What the body leaves in the result's staging buffer: its one whole-buffer store of the payload of the two loads. -/
def out1_2 (x0 : Vec F S512x8192 .f32) (x1 : Vec F S8192x32 .f32) : Vec F S512x32 .f32 :=
  View.canon [⟨rC1, k1_pay1 (View.ld x0 rA1) (View.ld x1 rB1)⟩]

/-- The one store covers the buffer. -/
theorem cover1_2 (p0 : Vec F S512x32 .f32) (y : S512x32.Idx) :
    ∃ pc ∈ ([⟨rC1, p0⟩] : List (View.Piece (Elt F) S512x32 .f32)), y ∈ pc.1.set :=
  View.cover_of_tiled [⟨rC1, p0⟩] S512x32.size (by rfl) y

set_option maxHeartbeats 1000000 in
/-- The body on whole staging buffers: the operands' buffers are left as found, the result's holds `out1_2` of them. -/
theorem sound_kernel1 (c : Dev nD) (E : Set ℕ) (i : grid1.Coords) (arg1 : Memref sig .tc .vmem S512x8192 .f32) (harg1 : arg1.IsWhole) (arg2 : Memref sig .tc .vmem S8192x32 .f32) (harg2 : arg2.IsWhole) (arg3 : Memref sig .tc .vmem S512x32 .f32) (harg3 : arg3.IsWhole)
    (x0 : Vec F S512x8192 .f32) (x1 : Vec F S8192x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__row_matmul_kernel i arg1 harg1 arg2 harg2 arg3 harg3) K := by
  simp only [cc1__row_matmul_kernel_eq_skeleton]; unfold cc1__row_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each
    operand's buffer at its block and the result's at `out1_2` of the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Region2.lean ====
/-
  Region 2: a 1024-row block of h times the whole of W2 (32×16), one block of h·W2 per grid point.
  The body's run on whole staging buffers and the pipeline's proof data, at any float instance, stated at the
  region's entry contents `V`.
-/
import proofs.«169699_j12910671692500_1_alg».proof.Proof.Gen.Kernel.Launch
import proofs.«169699_j12910671692500_1_alg».proof.Proof.Gen.Kernel.Skeleton
import proofs.«169699_j12910671692500_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds its block at every point, fetched there or carried from an earlier one. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body reads and writes each staging buffer whole. -/
abbrev rA2 : Rect S1024x32 := Rect.unit (s := S1024x32) ![0, 0] S1024x32.size inb_S1024x32_S1024x32_0_0
abbrev rB2 : Rect S32x16 := Rect.unit (s := S32x16) ![0, 0] S32x16.size inb_S32x16_S32x16_0_0
abbrev rC2 : Rect S1024x16 := Rect.unit (s := S1024x16) ![0, 0] S1024x16.size inb_S1024x16_S1024x16_0_0

/-- What the body leaves in the result's staging buffer: its one whole-buffer store of the payload of the two loads. -/
def out2_2 (x0 : Vec F S1024x32 .f32) (x1 : Vec F S32x16 .f32) : Vec F S1024x16 .f32 :=
  View.canon [⟨rC2, k2_pay1 (View.ld x0 rA2) (View.ld x1 rB2)⟩]

/-- The one store covers the buffer. -/
theorem cover2_2 (p0 : Vec F S1024x16 .f32) (y : S1024x16.Idx) :
    ∃ pc ∈ ([⟨rC2, p0⟩] : List (View.Piece (Elt F) S1024x16 .f32)), y ∈ pc.1.set :=
  View.cover_of_tiled [⟨rC2, p0⟩] S1024x16.size (by rfl) y

set_option maxHeartbeats 1000000 in
/-- The body on whole staging buffers: the operands' buffers are left as found, the result's holds `out2_2` of them. -/
theorem sound_kernel2 (c : Dev nD) (E : Set ℕ) (i : grid2.Coords) (arg1 : Memref sig .tc .vmem S1024x32 .f32) (harg1 : arg1.IsWhole) (arg2 : Memref sig .tc .vmem S32x16 .f32) (harg2 : arg2.IsWhole) (arg3 : Memref sig .tc .vmem S1024x16 .f32) (harg3 : arg3.IsWhole)
    (x0 : Vec F S1024x32 .f32) (x1 : Vec F S32x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__row_matmul_kernel i arg1 harg1 arg2 harg2 arg3 harg3) K := by
  simp only [cc2__row_matmul_kernel_eq_skeleton]; unfold cc2__row_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each
    operand's buffer at its block and the result's at `out2_2` of the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Region3.lean ====
/-
  Region 3: a 512-row block of adj times the whole of h·W2 (8192×16), clamped below at zero: one block of
  Z = relu(adj·(h·W2)) per grid point. The body's run on whole staging buffers and the pipeline's proof data, at
  any float instance, stated at the region's entry contents `V`.
-/
import proofs.«169699_j12910671692500_1_alg».proof.Proof.Gen.Kernel.Launch
import proofs.«169699_j12910671692500_1_alg».proof.Proof.Gen.Kernel.Skeleton
import proofs.«169699_j12910671692500_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand's staging buffer holds its block at every point, fetched there or carried from an earlier one. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The body reads and writes each staging buffer whole. -/
abbrev rA3 : Rect S512x8192 := Rect.unit (s := S512x8192) ![0, 0] S512x8192.size inb_S512x8192_S512x8192_0_0
abbrev rB3 : Rect S8192x16 := Rect.unit (s := S8192x16) ![0, 0] S8192x16.size inb_S8192x16_S8192x16_0_0
abbrev rC3 : Rect S512x16 := Rect.unit (s := S512x16) ![0, 0] S512x16.size inb_S512x16_S512x16_0_0

/-- What the body leaves in the result's staging buffer: its one whole-buffer store of the payload of the two loads. -/
def out3_2 (x0 : Vec F S512x8192 .f32) (x1 : Vec F S8192x16 .f32) : Vec F S512x16 .f32 :=
  View.canon [⟨rC3, k3_pay1 (View.ld x0 rA3) (View.ld x1 rB3)⟩]

/-- The one store covers the buffer. -/
theorem cover3_2 (p0 : Vec F S512x16 .f32) (y : S512x16.Idx) :
    ∃ pc ∈ ([⟨rC3, p0⟩] : List (View.Piece (Elt F) S512x16 .f32)), y ∈ pc.1.set :=
  View.cover_of_tiled [⟨rC3, p0⟩] S512x16.size (by rfl) y

set_option maxHeartbeats 1000000 in
/-- The body on whole staging buffers: the operands' buffers are left as found, the result's holds `out3_2` of them. -/
theorem sound_kernel3 (c : Dev nD) (E : Set ℕ) (i : grid3.Coords) (arg1 : Memref sig .tc .vmem S512x8192 .f32) (harg1 : arg1.IsWhole) (arg2 : Memref sig .tc .vmem S8192x16 .f32) (harg2 : arg2.IsWhole) (arg3 : Memref sig .tc .vmem S512x16 .f32) (harg3 : arg3.IsWhole)
    (x0 : Vec F S512x8192 .f32) (x1 : Vec F S8192x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__row_matmul_kernel i arg1 harg1 arg2 harg2 arg3 harg3) K := by
  simp only [cc3__row_matmul_kernel_eq_skeleton]; unfold cc3__row_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each
    operand's buffer at its block and the result's at `out3_2` of the two blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the operands' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Bits.Region4.lean ====
/-
  Region 4: a 2048-row block of Z against another 2048-row block of Z, the second transposed: one
  2048×2048 block of logistic(Z·Zᵀ) per point of the 4×4 grid. Both operand windows read the ONE array Z, so
  the proof data hold it at two half shares. The body's run on whole staging buffers and the pipeline's proof
  data, at any float instance, stated at the region's entry contents `V`.
-/
import proofs.«169699_j12910671692500_1_alg».proof.Proof.Gen.Kernel.Launch
import proofs.«169699_j12910671692500_1_alg».proof.Proof.Gen.Kernel.Skeleton
import proofs.«169699_j12910671692500_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The right operand's staging buffer holds its block at every point, fetched there or carried from an earlier one. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body reads and writes each staging buffer whole. -/
abbrev rA4 : Rect S2048x16 := Rect.unit (s := S2048x16) ![0, 0] S2048x16.size inb_S2048x16_S2048x16_0_0
abbrev rB4 : Rect S2048x16 := Rect.unit (s := S2048x16) ![0, 0] S2048x16.size inb_S2048x16_S2048x16_0_0
abbrev rC4 : Rect S2048x2048 := Rect.unit (s := S2048x2048) ![0, 0] S2048x2048.size inb_S2048x2048_S2048x2048_0_0

/-- What the body leaves in the result's staging buffer: its one whole-buffer store of the payload of the two loads. -/
def out4_2 (x0 : Vec F S2048x16 .f32) (x1 : Vec F S2048x16 .f32) : Vec F S2048x2048 .f32 :=
  View.canon [⟨rC4, k4_pay1 (View.ld x0 rA4) (View.ld x1 rB4)⟩]

/-- The one store covers the buffer. -/
theorem cover4_2 (p0 : Vec F S2048x2048 .f32) (y : S2048x2048.Idx) :
    ∃ pc ∈ ([⟨rC4, p0⟩] : List (View.Piece (Elt F) S2048x2048 .f32)), y ∈ pc.1.set :=
  View.cover_of_tiled [⟨rC4, p0⟩] S2048x2048.size (by rfl) y

set_option maxHeartbeats 1000000 in
/-- The body on whole staging buffers: the operands' buffers are left as found, the result's holds `out4_2` of them. -/
theorem sound_kernel4 (c : Dev nD) (E : Set ℕ) (i : grid4.Coords) (arg2 : Memref sig .tc .vmem S2048x16 .f32) (harg2 : arg2.IsWhole) (arg3 : Memref sig .tc .vmem S2048x16 .f32) (harg3 : arg3.IsWhole) (arg4 : Memref sig .tc .vmem S2048x2048 .f32) (harg4 : arg4.IsWhole)
    (x0 : Vec F S2048x16 .f32) (x1 : Vec F S2048x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4__decode_kernel i arg2 harg2 arg3 harg3 arg4 harg4) K := by
  simp only [cc4__decode_kernel_eq_skeleton]; unfold cc4__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data on core `c`: the arrays as the region finds them; after the body at point `t` each
    operand's buffer at its block and the result's at `out4_2` of the two blocks; nothing owed; the two
    operand windows, which read one array, hold it at the two halves of the full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the operands' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Bits.SharedOperand.lean ====
/-
  Region 4's two operand windows read ONE array, Z. The pipeline's proof data then hold that array twice, once per
  window, at the two halves of the full share; the result array is held once, at the full share. Here: the core's
  unscoped buffers at known contents split into those three holdings and the rest, and the three holdings — the two
  halves still at the entry contents — join back into the unscoped buffers at contents that differ only at the
  result array.
-/
import proofs.«169699_j12910671692500_1_alg».proof.Proof.Gen.Kernel.Launch
import proofs.«169699_j12910671692500_1_alg».proof.Proof.Gen.Kernel.Skeleton
import proofs.«169699_j12910671692500_1_alg».proof.Proof.Gen.Kernel.Points
import proofs.«169699_j12910671692500_1_alg».proof.Proof.Bits.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's windows name two distinct buffers. -/
theorem arr_image4 : Finset.univ.image (Pipeline.arrRef (cfgs 4).spec) = ({main_v3, main_v4} : Finset (Ref sig .tc)) := by decide

/-- The shares the proof data hold the three windows' arrays at. -/
theorem share4_0 (c : Dev nD) : (dat4 V c).share 0 = fullShare.left := rfl
theorem share4_1 (c : Dev nD) : (dat4 V c).share 1 = fullShare.right := rfl
theorem share4_2 (c : Dev nD) : (dat4 V c).share 2 = fullShare := rfl

/-- Out: the unscoped buffers at `V c` are Z's array cut in two halves, the result array whole, and the rest. -/
theorem arrays_of_bufs4 (c : Dev nD) :
    (unscopedBufs c (V c) : sProp 𝕄) ⊢ iprop((dat4 V c).arrays ((dat4 V c).arrAt · 0) ∗ Pipeline.unscopedRest spec4 c (V c)) := by
  rw [Pipeline.unscopedBufs_split₀ cfgs 4 winFacts₀4.arr_unscoped c (V c)]
  refine sep_mono ?_ .rfl
  unfold Pipeline.arrBufs Dat.arrays
  rw [arr_image4, bigSep_W4, bigSep_insert (by decide), bigSep_singleton,
    (arr_whole4 0).set_eq_univ, (arr_whole4 2).set_eq_univ, share4_0, share4_1, share4_2]
  show iprop(((c : Thread nD τ).loc main_v3 ↦{fullShare} V c main_v3) ∗ ((c : Thread nD τ).loc main_v4 ↦{fullShare} V c main_v4)) ⊢ _
  exact (sep_mono (pointsTo_share (PosShare.mem_left_op_right fullShare)).1 .rfl).trans sep_assoc.1

/-- Back: the two halves of Z's array and the whole result array, beside the rest, are the core's unscoped buffers at
    any contents that have the result array at `F 2`, and agree with `V c` everywhere else. -/
theorem bufs_of_arrays4 (c : Dev nD) (V' : (b : Ref sig .tc) → Buf (Elt F) ((c : Thread nD τ).loc b))
    (F' : (w : Fin cfg4.W) → Buf (Elt F) ((cfg4.win w).arr.view.loc (c : Thread nD τ)))
    (h0 : F' 0 = V c main_v3) (h1 : F' 1 = V c main_v3) (h2 : F' 2 = V' main_v4)
    (hrest : ∀ b, b ≠ main_v4 → V' b = V c b) :
    iprop((dat4 V c).arrays F' ∗ Pipeline.unscopedRest spec4 c (V c)) ⊢ (unscopedBufs c V' : sProp 𝕄) := by
  rw [Pipeline.unscopedBufs_split₀ cfgs 4 winFacts₀4.arr_unscoped c V']
  refine sep_mono ?_ (Entails.of_eq ?_)
  · unfold Pipeline.arrBufs Dat.arrays
    rw [arr_image4, bigSep_W4, bigSep_insert (by decide), bigSep_singleton,
      (arr_whole4 0).set_eq_univ, (arr_whole4 2).set_eq_univ, share4_0, share4_1, share4_2, h0, h1, h2,
      hrest main_v3 (by decide)]
    show _ ⊢ iprop(((c : Thread nD τ).loc main_v3 ↦{fullShare} V c main_v3) ∗ ((c : Thread nD τ).loc main_v4 ↦{fullShare} V' main_v4))
    exact sep_assoc.2.trans (sep_mono (pointsTo_share (PosShare.mem_left_op_right fullShare)).2 .rfl)
  · unfold Pipeline.unscopedRest
    exact (bigSep_congr fun b hb => by
      rw [hrest b (fun e => (Finset.mem_sdiff.mp hb).2 (Finset.mem_image.mpr ⟨2, Finset.mem_univ _, e.symm⟩))]).symm

end Cert.Kernel.Hand
end
-- ==== Proof.Bits.Run.lean ====
/-
  The whole program as a chain of its five regions, at any float instance.

  Between two regions the core's unscoped buffers are held whole at known contents: `E0` is the launch memory, and
  region k turns `Ek` into `E(k+1)`, which differs from `Ek` exactly at the region's result array — there it holds
  what the pipeline's write-backs leave. Each region enters from "every unscoped buffer at `Ek`" and leaves at "every
  unscoped buffer at `E(k+1)`"; the launch theorem for a sequence of regions then says that every weakly fair
  execution terminates in a state whose memory is `E5` at every unscoped buffer (`run_all`). The frame claim and the
  value claim are both read off `E5`: an argument's buffer walks back through the five steps to the launch memory,
  and the two results are regions 3's and 4's arrays.
-/
import proofs.«169699_j12910671692500_1_alg».proof.Proof.Gen.Kernel.Launch
import proofs.«169699_j12910671692500_1_alg».proof.Proof.Gen.Kernel.Skeleton
import proofs.«169699_j12910671692500_1_alg».proof.Proof.Gen.Kernel.Points
import proofs.«169699_j12910671692500_1_alg».proof.Proof.Bits.Region0
import proofs.«169699_j12910671692500_1_alg».proof.Proof.Bits.Region1
import proofs.«169699_j12910671692500_1_alg».proof.Proof.Bits.Region2
import proofs.«169699_j12910671692500_1_alg».proof.Proof.Bits.Region3
import proofs.«169699_j12910671692500_1_alg».proof.Proof.Bits.Region4
import proofs.«169699_j12910671692500_1_alg».proof.Proof.Bits.SharedOperand
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the region boundaries -/

/-- Core `c`'s buffers at launch. -/
abbrev E0 : Dev nD → Valuation τ sig (Elt F) := fun c b => m ((c : Dev nD), b)
/-- The contents region 0 is entered from, read at the TensorCore's references. -/
abbrev U0 : (c : Dev nD) → (b : Ref sig .tc) → Buf (Elt F) ((c : Thread nD τ).loc b) := fun c b => E0 m c b
/-- After region 0: its arrays at what the pipeline leaves, every other buffer as entered. -/
def E1 (c : Dev nD) : Valuation τ sig (Elt F) :=
  Pipeline.withArrays spec0 c (E0 m c) fun w => (dat0 (U0 m) c).arrAt w cfg0.N
theorem E1_arr (c : Dev nD) (w : Fin cfg0.W) :
    E1 m c (Proc.devRef .tc (Pipeline.arrRef spec0 w)) = (dat0 (U0 m) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m c (Proc.devRef .tc b) = E0 m c (Proc.devRef .tc b) := by
  unfold E1; exact Pipeline.withArrays_of_ne spec0 c _ _ b hb
theorem hF0 (c : Dev nD) (w : Fin cfg0.W) : (dat0 (U0 m) c).arrAt w cfg0.N = (fun b : Ref sig .tc => E1 m c b) (Pipeline.arrRef spec0 w) :=
  (E1_arr m c w).symm
theorem hrest0 (c : Dev nD) : ∀ b : Ref sig .tc, b ∉ Finset.univ.image (Pipeline.arrRef spec0) → E1 m c b = E0 m c b :=
  fun b hb => E1_of_ne m c b fun w e => hb (Finset.mem_image.mpr ⟨w, Finset.mem_univ _, e⟩)

/-- The contents region 1 is entered from, read at the TensorCore's references. -/
abbrev U1 : (c : Dev nD) → (b : Ref sig .tc) → Buf (Elt F) ((c : Thread nD τ).loc b) := fun c b => E1 m c b
/-- After region 1: its arrays at what the pipeline leaves, every other buffer as entered. -/
def E2 (c : Dev nD) : Valuation τ sig (Elt F) :=
  Pipeline.withArrays spec1 c (E1 m c) fun w => (dat1 (U1 m) c).arrAt w cfg1.N
theorem E2_arr (c : Dev nD) (w : Fin cfg1.W) :
    E2 m c (Proc.devRef .tc (Pipeline.arrRef spec1 w)) = (dat1 (U1 m) c).arrAt w cfg1.N := by
  unfold E2; exact Pipeline.withArrays_arr spec1 launch1.win.arr_inj c _ _ w
theorem E2_of_ne (c : Dev nD) (b : Ref sig .tc) (hb : ∀ w, Pipeline.arrRef spec1 w ≠ b) :
    E2 m c (Proc.devRef .tc b) = E1 m c (Proc.devRef .tc b) := by
  unfold E2; exact Pipeline.withArrays_of_ne spec1 c _ _ b hb
theorem hF1 (c : Dev nD) (w : Fin cfg1.W) : (dat1 (U1 m) c).arrAt w cfg1.N = (fun b : Ref sig .tc => E2 m c b) (Pipeline.arrRef spec1 w) :=
  (E2_arr m c w).symm
theorem hrest1 (c : Dev nD) : ∀ b : Ref sig .tc, b ∉ Finset.univ.image (Pipeline.arrRef spec1) → E2 m c b = E1 m c b :=
  fun b hb => E2_of_ne m c b fun w e => hb (Finset.mem_image.mpr ⟨w, Finset.mem_univ _, e⟩)

/-- The contents region 2 is entered from, read at the TensorCore's references. -/
abbrev U2 : (c : Dev nD) → (b : Ref sig .tc) → Buf (Elt F) ((c : Thread nD τ).loc b) := fun c b => E2 m c b
/-- After region 2: its arrays at what the pipeline leaves, every other buffer as entered. -/
def E3 (c : Dev nD) : Valuation τ sig (Elt F) :=
  Pipeline.withArrays spec2 c (E2 m c) fun w => (dat2 (U2 m) c).arrAt w cfg2.N
theorem E3_arr (c : Dev nD) (w : Fin cfg2.W) :
    E3 m c (Proc.devRef .tc (Pipeline.arrRef spec2 w)) = (dat2 (U2 m) c).arrAt w cfg2.N := by
  unfold E3; exact Pipeline.withArrays_arr spec2 launch2.win.arr_inj c _ _ w
theorem E3_of_ne (c : Dev nD) (b : Ref sig .tc) (hb : ∀ w, Pipeline.arrRef spec2 w ≠ b) :
    E3 m c (Proc.devRef .tc b) = E2 m c (Proc.devRef .tc b) := by
  unfold E3; exact Pipeline.withArrays_of_ne spec2 c _ _ b hb
theorem hF2 (c : Dev nD) (w : Fin cfg2.W) : (dat2 (U2 m) c).arrAt w cfg2.N = (fun b : Ref sig .tc => E3 m c b) (Pipeline.arrRef spec2 w) :=
  (E3_arr m c w).symm
theorem hrest2 (c : Dev nD) : ∀ b : Ref sig .tc, b ∉ Finset.univ.image (Pipeline.arrRef spec2) → E3 m c b = E2 m c b :=
  fun b hb => E3_of_ne m c b fun w e => hb (Finset.mem_image.mpr ⟨w, Finset.mem_univ _, e⟩)

/-- The contents region 3 is entered from, read at the TensorCore's references. -/
abbrev U3 : (c : Dev nD) → (b : Ref sig .tc) → Buf (Elt F) ((c : Thread nD τ).loc b) := fun c b => E3 m c b
/-- After region 3: its arrays at what the pipeline leaves, every other buffer as entered. -/
def E4 (c : Dev nD) : Valuation τ sig (Elt F) :=
  Pipeline.withArrays spec3 c (E3 m c) fun w => (dat3 (U3 m) c).arrAt w cfg3.N
theorem E4_arr (c : Dev nD) (w : Fin cfg3.W) :
    E4 m c (Proc.devRef .tc (Pipeline.arrRef spec3 w)) = (dat3 (U3 m) c).arrAt w cfg3.N := by
  unfold E4; exact Pipeline.withArrays_arr spec3 launch3.win.arr_inj c _ _ w
theorem E4_of_ne (c : Dev nD) (b : Ref sig .tc) (hb : ∀ w, Pipeline.arrRef spec3 w ≠ b) :
    E4 m c (Proc.devRef .tc b) = E3 m c (Proc.devRef .tc b) := by
  unfold E4; exact Pipeline.withArrays_of_ne spec3 c _ _ b hb
theorem hF3 (c : Dev nD) (w : Fin cfg3.W) : (dat3 (U3 m) c).arrAt w cfg3.N = (fun b : Ref sig .tc => E4 m c b) (Pipeline.arrRef spec3 w) :=
  (E4_arr m c w).symm
theorem hrest3 (c : Dev nD) : ∀ b : Ref sig .tc, b ∉ Finset.univ.image (Pipeline.arrRef spec3) → E4 m c b = E3 m c b :=
  fun b hb => E4_of_ne m c b fun w e => hb (Finset.mem_image.mpr ⟨w, Finset.mem_univ _, e⟩)

/-- The contents region 4 is entered from, read at the TensorCore's references. -/
abbrev U4 : (c : Dev nD) → (b : Ref sig .tc) → Buf (Elt F) ((c : Thread nD τ).loc b) := fun c b => E4 m c b
/-- After region 4: its result array at what the pipeline leaves, every other buffer as entered (its two operand
    windows read one array, which it leaves alone). -/
def E5 (c : Dev nD) : Valuation τ sig (Elt F) :=
  Function.update (E4 m c) (Proc.devRef .tc main_v4) ((dat4 (U4 m) c).arrAt 2 cfg4.N)
theorem E5_out (c : Dev nD) : E5 m c (Proc.devRef .tc main_v4) = (dat4 (U4 m) c).arrAt 2 cfg4.N := by
  unfold E5; exact Function.update_self ..
theorem E5_of_ne (c : Dev nD) (b : Ref sig .tc) (hb : b ≠ main_v4) : E5 m c (Proc.devRef .tc b) = E4 m c (Proc.devRef .tc b) := by
  unfold E5; exact Function.update_of_ne (StableHlo.devRef_ne_of_ne hb) ..

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
  | ⟨2, _⟩ => fun c => dat2 (U2 m) c
  | ⟨3, _⟩ => fun c => dat3 (U3 m) c
  | ⟨4, _⟩ => fun c => dat4 (U4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the core's generator register at some state and its dues, at nothing. -/
abbrev R (c : Dev nD) : sProp 𝕄 := iprop((∃ r, prngReg c r) ∗ ∃ W, owes (c : Thread nD τ) (0 : CellTallies nD τ sig Unit) W)
/-- The last thread state without the dues: every unscoped buffer at `E5`, the generator register at some state. -/
abbrev Tₙ (c : Dev nD) : sProp 𝕄 := iprop(StableHlo.held (c : Thread nD τ) (Pipeline.ucRefs τ sig) (E5 m c) ∗ ∃ r, prngReg c r)

/-! ## The regions as segments -/

set_option backward.isDefEq.respectTransparency.types false in
/-- Region 0 over the thread state: entered from every unscoped buffer at `E0`, left at `E1`. Its arrays are split
    out of the unscoped buffers and put back at the exit contents; the generator register goes into the pipeline's
    invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (E1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (fun b : Ref sig .tc => E1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `E1`, left at `E2`. Its arrays are split
    out of the unscoped buffers and put back at the exit contents; the generator register goes into the pipeline's
    invariant and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (E1 m c) ∗ R c)
  post c := iprop(StableHlo.held (c : Thread nD τ) (Pipeline.ucRefs τ sig) (E2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (fun b : Ref sig .tc => E2 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `E2`, left at `E3`. Its arrays are split
    out of the unscoped buffers and put back at the exit contents; the generator register goes into the pipeline's
    invariant and comes out; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U2 m) c).loose
  hwaits := Pipeline.hwaits_of_owed_zero _ _ _ _ L lv 2 fun _ _ => rfl
  pre c := iprop(StableHlo.held (c : Thread nD τ) (Pipeline.ucRefs τ sig) (E2 m c) ∗ R c)
  post c := iprop(StableHlo.held (c : Thread nD τ) (Pipeline.ucRefs τ sig) (E3 m c) ∗ R c)
  X c := iprop(∃ r, prngReg c r)
  Y c := iprop(∃ r, prngReg c r)
  Z c := Pipeline.unscopedRest (Ix := Unit) (Name := ℕ) (U := UR sig nD τ) (Lvl := ℕ) spec2 c (U2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U2 m c) (fun b : Ref sig .tc => E3 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `E3`, left at `E4`. Its arrays are split
    out of the unscoped buffers and put back at the exit contents; the generator register goes into the pipeline's
    invariant and comes out; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U3 m) c).loose
  hwaits := Pipeline.hwaits_of_owed_zero _ _ _ _ L lv 3 fun _ _ => rfl
  pre c := iprop(StableHlo.held (c : Thread nD τ) (Pipeline.ucRefs τ sig) (E3 m c) ∗ R c)
  post c := iprop(StableHlo.held (c : Thread nD τ) (Pipeline.ucRefs τ sig) (E4 m c) ∗ R c)
  X c := iprop(∃ r, prngReg c r)
  Y c := iprop(∃ r, prngReg c r)
  Z c := Pipeline.unscopedRest (Ix := Unit) (Name := ℕ) (U := UR sig nD τ) (Lvl := ℕ) spec3 c (U3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U3 m c) (fun b : Ref sig .tc => E4 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `E4`, left at `E5`. Its two operand windows
    read ONE array: at entry that buffer's full share is cut in two halves, one per window, and at exit the halves —
    both still at the entry contents, an operand window writing nothing back — are joined again. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (U4 m) c).loose
  hwaits := Pipeline.hwaits_of_owed_zero _ _ _ _ L lv 4 fun _ _ => rfl
  pre c := iprop(StableHlo.held (c : Thread nD τ) (Pipeline.ucRefs τ sig) (E4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (U4 m c)
  hentry c := by
    rw [Pipeline.ownSems0_none]
    have hsplit := arrays_of_bufs4 (U4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest spec4 c (U4 m c))
        ⊢ (unscopedBufs c (fun b : Ref sig .tc => E5 m c b) : sProp 𝕄) :=
      bufs_of_arrays4 (U4 m) c (fun b : Ref sig .tc => E5 m c b) ((pdats m 4 c).arrAt · cfg4.N)
        ((dat4 (U4 m) c).arrAt_in 0 rfl _) ((dat4 (U4 m) c).arrAt_in 1 rfl _) (E5_out m c).symm (fun b hb => E5_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as its five regions, and the launch -/

abbrev segs : List (Pipeline.Seg (pcfgs (F := F)) adm (pdats m) () defs₀ 𝒱₀ L lv) :=
  [ .region (reg0 m), .region (reg1 m), .region (reg2 m), .region (reg3 m), .region (reg4 m) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, in a
    state whose memory holds `E5` at every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E5 m c b)
    (hfin := fun c s' => by
      iintro ⟨⟨Hh, -⟩, HSI⟩
      unfold StableHlo.held
      imodintro
      iapply (pointsTo_read_all (Pipeline.ucRefs τ sig) (fun b => (((c : Thread nD τ)).1, b)) (E5 m c) s')
      isplitl [Hh] <;> iassumption)
    (hQ := fun s h => h)

/-! ## What `E5` holds -/

theorem E5_main_arg0 (c : Dev nD) : E5 m c (Proc.devRef .tc main_arg0) = m ((c : Thread nD τ).loc main_arg0) :=
  calc E5 m c (Proc.devRef .tc main_arg0)
    _ = E4 m c (Proc.devRef .tc main_arg0) := E5_of_ne m c main_arg0 (by decide)
    _ = E3 m c (Proc.devRef .tc main_arg0) := E4_of_ne m c main_arg0 (by decide)
    _ = E2 m c (Proc.devRef .tc main_arg0) := E3_of_ne m c main_arg0 (by decide)
    _ = E1 m c (Proc.devRef .tc main_arg0) := E2_of_ne m c main_arg0 (by decide)
    _ = E0 m c (Proc.devRef .tc main_arg0) := (E1_arr m c 0).trans (((dat0 (U0 m) c).arrAt_in 0 rfl _).trans (A_eq0 (U0 m) c 0))
    _ = m ((c : Thread nD τ).loc main_arg0) := rfl
theorem E5_main_arg1 (c : Dev nD) : E5 m c (Proc.devRef .tc main_arg1) = m ((c : Thread nD τ).loc main_arg1) :=
  calc E5 m c (Proc.devRef .tc main_arg1)
    _ = E4 m c (Proc.devRef .tc main_arg1) := E5_of_ne m c main_arg1 (by decide)
    _ = E3 m c (Proc.devRef .tc main_arg1) := (E4_arr m c 0).trans (((dat3 (U3 m) c).arrAt_in 0 rfl _).trans (A_eq3 (U3 m) c 0))
    _ = E2 m c (Proc.devRef .tc main_arg1) := E3_of_ne m c main_arg1 (by decide)
    _ = E1 m c (Proc.devRef .tc main_arg1) := (E2_arr m c 0).trans (((dat1 (U1 m) c).arrAt_in 0 rfl _).trans (A_eq1 (U1 m) c 0))
    _ = E0 m c (Proc.devRef .tc main_arg1) := E1_of_ne m c main_arg1 (by decide)
    _ = m ((c : Thread nD τ).loc main_arg1) := rfl
theorem E5_main_arg2 (c : Dev nD) : E5 m c (Proc.devRef .tc main_arg2) = m ((c : Thread nD τ).loc main_arg2) :=
  calc E5 m c (Proc.devRef .tc main_arg2)
    _ = E4 m c (Proc.devRef .tc main_arg2) := E5_of_ne m c main_arg2 (by decide)
    _ = E3 m c (Proc.devRef .tc main_arg2) := E4_of_ne m c main_arg2 (by decide)
    _ = E2 m c (Proc.devRef .tc main_arg2) := E3_of_ne m c main_arg2 (by decide)
    _ = E1 m c (Proc.devRef .tc main_arg2) := E2_of_ne m c main_arg2 (by decide)
    _ = E0 m c (Proc.devRef .tc main_arg2) := (E1_arr m c 1).trans (((dat0 (U0 m) c).arrAt_in 1 rfl _).trans (A_eq0 (U0 m) c 1))
    _ = m ((c : Thread nD τ).loc main_arg2) := rfl
theorem E5_main_arg3 (c : Dev nD) : E5 m c (Proc.devRef .tc main_arg3) = m ((c : Thread nD τ).loc main_arg3) :=
  calc E5 m c (Proc.devRef .tc main_arg3)
    _ = E4 m c (Proc.devRef .tc main_arg3) := E5_of_ne m c main_arg3 (by decide)
    _ = E3 m c (Proc.devRef .tc main_arg3) := E4_of_ne m c main_arg3 (by decide)
    _ = E2 m c (Proc.devRef .tc main_arg3) := (E3_arr m c 1).trans (((dat2 (U2 m) c).arrAt_in 1 rfl _).trans (A_eq2 (U2 m) c 1))
    _ = E1 m c (Proc.devRef .tc main_arg3) := E2_of_ne m c main_arg3 (by decide)
    _ = E0 m c (Proc.devRef .tc main_arg3) := E1_of_ne m c main_arg3 (by decide)
    _ = m ((c : Thread nD τ).loc main_arg3) := rfl

/-- The first result, Z, is what region 3 leaves in its result array (region 4 only reads it). -/
theorem E5_main_v3 (c : Dev nD) : E5 m c (Proc.devRef .tc main_v3) = (dat3 (U3 m) c).arrAt 2 cfg3.N :=
  (E5_of_ne m c main_v3 (by decide)).trans (E4_arr m c 2)

/-- Entry contents of the later regions at the arrays they read: what the earlier regions left, or the launch memory. -/
theorem U1_main_arg1 (c : Dev nD) : U1 m c main_arg1 = m ((c : Thread nD τ).loc main_arg1) := E1_of_ne m c main_arg1 (by decide)
theorem U1_main_v0 (c : Dev nD) : U1 m c main_v0 = (dat0 (U0 m) c).arrAt 2 cfg0.N := E1_arr m c 2
theorem U2_main_v1 (c : Dev nD) : U2 m c main_v1 = (dat1 (U1 m) c).arrAt 2 cfg1.N := E2_arr m c 2
theorem U2_main_arg3 (c : Dev nD) : U2 m c main_arg3 = m ((c : Thread nD τ).loc main_arg3) :=
  (E2_of_ne m c main_arg3 (by decide)).trans (E1_of_ne m c main_arg3 (by decide))
theorem U3_main_arg1 (c : Dev nD) : U3 m c main_arg1 = m ((c : Thread nD τ).loc main_arg1) :=
  (E3_of_ne m c main_arg1 (by decide)).trans (((E2_arr m c 0).trans (((dat1 (U1 m) c).arrAt_in 0 rfl _).trans (A_eq1 (U1 m) c 0))).trans (U1_main_arg1 m c))
theorem U3_main_v2 (c : Dev nD) : U3 m c main_v2 = (dat2 (U2 m) c).arrAt 2 cfg2.N := E3_arr m c 2
theorem U4_main_v3 (c : Dev nD) : U4 m c main_v3 = (dat3 (U3 m) c).arrAt 2 cfg3.N := E4_arr m c 2

/-- The frame claim at any float instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (E5_main_arg0 m c),
     (h c _ (mem_uc main_arg1 (by decide))).trans (E5_main_arg1 m c),
     (h c _ (mem_uc main_arg2 (by decide))).trans (E5_main_arg2 m c),
     (h c _ (mem_uc main_arg3 (by decide))).trans (E5_main_arg3 m c)⟩) (run_all m ρ)

end Cert.Kernel.Hand

end
-- ==== Proof.Ideal.Region0.lean ====
/-
  Region 0: a 1024-row block of X times the whole of W1 (512×32), one block of X·W1 per grid point.
  The body's run on whole staging buffers and the pipeline's proof data, at any float instance, stated at the
  region's entry contents `V`.
-/
import proofs.«169699_j12910671692500_1_alg».proof.Proof.Gen.KernelIdeal.Launch
import proofs.«169699_j12910671692500_1_alg».proof.Proof.Gen.KernelIdeal.Skeleton
import proofs.«169699_j12910671692500_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds its block at every point, fetched there or carried from an earlier one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body reads and writes each staging buffer whole. -/
abbrev rA0 : Rect S1024x512 := Rect.unit (s := S1024x512) ![0, 0] S1024x512.size inb_S1024x512_S1024x512_0_0
abbrev rB0 : Rect S512x32 := Rect.unit (s := S512x32) ![0, 0] S512x32.size inb_S512x32_S512x32_0_0
abbrev rC0 : Rect S1024x32 := Rect.unit (s := S1024x32) ![0, 0] S1024x32.size inb_S1024x32_S1024x32_0_0

/-- What the body leaves in the result's staging buffer: its one whole-buffer store of the payload of the two loads. -/
def out0_2 (x0 : Vec F S1024x512 .f32) (x1 : Vec F S512x32 .f32) : Vec F S1024x32 .f32 :=
  View.canon [⟨rC0, k0_pay1 (View.ld x0 rA0) (View.ld x1 rB0)⟩]

/-- The one store covers the buffer. -/
theorem cover0_2 (p0 : Vec F S1024x32 .f32) (y : S1024x32.Idx) :
    ∃ pc ∈ ([⟨rC0, p0⟩] : List (View.Piece (Elt F) S1024x32 .f32)), y ∈ pc.1.set :=
  View.cover_of_tiled [⟨rC0, p0⟩] S1024x32.size (by rfl) y

set_option maxHeartbeats 1000000 in
/-- The body on whole staging buffers: the operands' buffers are left as found, the result's holds `out0_2` of them. -/
theorem sound_kernel0 (c : Dev nD) (E : Set ℕ) (i : grid0.Coords) (arg1 : Memref sig .tc .vmem S1024x512 .f32) (harg1 : arg1.IsWhole) (arg2 : Memref sig .tc .vmem S512x32 .f32) (harg2 : arg2.IsWhole) (arg3 : Memref sig .tc .vmem S1024x32 .f32) (harg3 : arg3.IsWhole)
    (x0 : Vec F S1024x512 .f32) (x1 : Vec F S512x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__row_matmul_kernel i arg1 harg1 arg2 harg2 arg3 harg3) K := by
  simp only [cc0__row_matmul_kernel_eq_skeleton]; unfold cc0__row_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    operand's buffer at its block and the result's at `out0_2` of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.Region1.lean ====
/-
  Region 1: a 512-row block of adj times the whole of X·W1 (8192×32), clamped below at zero: one block of
  relu(adj·(X·W1)) per grid point. The body's run on whole staging buffers and the pipeline's proof data, at any
  float instance, stated at the region's entry contents `V`.
-/
import proofs.«169699_j12910671692500_1_alg».proof.Proof.Gen.KernelIdeal.Launch
import proofs.«169699_j12910671692500_1_alg».proof.Proof.Gen.KernelIdeal.Skeleton
import proofs.«169699_j12910671692500_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds its block at every point, fetched there or carried from an earlier one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body reads and writes each staging buffer whole. -/
abbrev rA1 : Rect S512x8192 := Rect.unit (s := S512x8192) ![0, 0] S512x8192.size inb_S512x8192_S512x8192_0_0
abbrev rB1 : Rect S8192x32 := Rect.unit (s := S8192x32) ![0, 0] S8192x32.size inb_S8192x32_S8192x32_0_0
abbrev rC1 : Rect S512x32 := Rect.unit (s := S512x32) ![0, 0] S512x32.size inb_S512x32_S512x32_0_0

/-- What the body leaves in the result's staging buffer: its one whole-buffer store of the payload of the two loads. -/
def out1_2 (x0 : Vec F S512x8192 .f32) (x1 : Vec F S8192x32 .f32) : Vec F S512x32 .f32 :=
  View.canon [⟨rC1, k1_pay1 (View.ld x0 rA1) (View.ld x1 rB1)⟩]

/-- The one store covers the buffer. -/
theorem cover1_2 (p0 : Vec F S512x32 .f32) (y : S512x32.Idx) :
    ∃ pc ∈ ([⟨rC1, p0⟩] : List (View.Piece (Elt F) S512x32 .f32)), y ∈ pc.1.set :=
  View.cover_of_tiled [⟨rC1, p0⟩] S512x32.size (by rfl) y

set_option maxHeartbeats 1000000 in
/-- The body on whole staging buffers: the operands' buffers are left as found, the result's holds `out1_2` of them. -/
theorem sound_kernel1 (c : Dev nD) (E : Set ℕ) (i : grid1.Coords) (arg1 : Memref sig .tc .vmem S512x8192 .f32) (harg1 : arg1.IsWhole) (arg2 : Memref sig .tc .vmem S8192x32 .f32) (harg2 : arg2.IsWhole) (arg3 : Memref sig .tc .vmem S512x32 .f32) (harg3 : arg3.IsWhole)
    (x0 : Vec F S512x8192 .f32) (x1 : Vec F S8192x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__row_matmul_kernel i arg1 harg1 arg2 harg2 arg3 harg3) K := by
  simp only [cc1__row_matmul_kernel_eq_skeleton]; unfold cc1__row_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each
    operand's buffer at its block and the result's at `out1_2` of the two blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Region2.lean ====
/-
  Region 2: a 1024-row block of h times the whole of W2 (32×16), one block of h·W2 per grid point.
  The body's run on whole staging buffers and the pipeline's proof data, at any float instance, stated at the
  region's entry contents `V`.
-/
import proofs.«169699_j12910671692500_1_alg».proof.Proof.Gen.KernelIdeal.Launch
import proofs.«169699_j12910671692500_1_alg».proof.Proof.Gen.KernelIdeal.Skeleton
import proofs.«169699_j12910671692500_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds its block at every point, fetched there or carried from an earlier one. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body reads and writes each staging buffer whole. -/
abbrev rA2 : Rect S1024x32 := Rect.unit (s := S1024x32) ![0, 0] S1024x32.size inb_S1024x32_S1024x32_0_0
abbrev rB2 : Rect S32x16 := Rect.unit (s := S32x16) ![0, 0] S32x16.size inb_S32x16_S32x16_0_0
abbrev rC2 : Rect S1024x16 := Rect.unit (s := S1024x16) ![0, 0] S1024x16.size inb_S1024x16_S1024x16_0_0

/-- What the body leaves in the result's staging buffer: its one whole-buffer store of the payload of the two loads. -/
def out2_2 (x0 : Vec F S1024x32 .f32) (x1 : Vec F S32x16 .f32) : Vec F S1024x16 .f32 :=
  View.canon [⟨rC2, k2_pay1 (View.ld x0 rA2) (View.ld x1 rB2)⟩]

/-- The one store covers the buffer. -/
theorem cover2_2 (p0 : Vec F S1024x16 .f32) (y : S1024x16.Idx) :
    ∃ pc ∈ ([⟨rC2, p0⟩] : List (View.Piece (Elt F) S1024x16 .f32)), y ∈ pc.1.set :=
  View.cover_of_tiled [⟨rC2, p0⟩] S1024x16.size (by rfl) y

set_option maxHeartbeats 1000000 in
/-- The body on whole staging buffers: the operands' buffers are left as found, the result's holds `out2_2` of them. -/
theorem sound_kernel2 (c : Dev nD) (E : Set ℕ) (i : grid2.Coords) (arg1 : Memref sig .tc .vmem S1024x32 .f32) (harg1 : arg1.IsWhole) (arg2 : Memref sig .tc .vmem S32x16 .f32) (harg2 : arg2.IsWhole) (arg3 : Memref sig .tc .vmem S1024x16 .f32) (harg3 : arg3.IsWhole)
    (x0 : Vec F S1024x32 .f32) (x1 : Vec F S32x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__row_matmul_kernel i arg1 harg1 arg2 harg2 arg3 harg3) K := by
  simp only [cc2__row_matmul_kernel_eq_skeleton]; unfold cc2__row_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each
    operand's buffer at its block and the result's at `out2_2` of the two blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the operands' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Ideal.Region3.lean ====
/-
  Region 3: a 512-row block of adj times the whole of h·W2 (8192×16), clamped below at zero: one block of
  Z = relu(adj·(h·W2)) per grid point. The body's run on whole staging buffers and the pipeline's proof data, at
  any float instance, stated at the region's entry contents `V`.
-/
import proofs.«169699_j12910671692500_1_alg».proof.Proof.Gen.KernelIdeal.Launch
import proofs.«169699_j12910671692500_1_alg».proof.Proof.Gen.KernelIdeal.Skeleton
import proofs.«169699_j12910671692500_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand's staging buffer holds its block at every point, fetched there or carried from an earlier one. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The body reads and writes each staging buffer whole. -/
abbrev rA3 : Rect S512x8192 := Rect.unit (s := S512x8192) ![0, 0] S512x8192.size inb_S512x8192_S512x8192_0_0
abbrev rB3 : Rect S8192x16 := Rect.unit (s := S8192x16) ![0, 0] S8192x16.size inb_S8192x16_S8192x16_0_0
abbrev rC3 : Rect S512x16 := Rect.unit (s := S512x16) ![0, 0] S512x16.size inb_S512x16_S512x16_0_0

/-- What the body leaves in the result's staging buffer: its one whole-buffer store of the payload of the two loads. -/
def out3_2 (x0 : Vec F S512x8192 .f32) (x1 : Vec F S8192x16 .f32) : Vec F S512x16 .f32 :=
  View.canon [⟨rC3, k3_pay1 (View.ld x0 rA3) (View.ld x1 rB3)⟩]

/-- The one store covers the buffer. -/
theorem cover3_2 (p0 : Vec F S512x16 .f32) (y : S512x16.Idx) :
    ∃ pc ∈ ([⟨rC3, p0⟩] : List (View.Piece (Elt F) S512x16 .f32)), y ∈ pc.1.set :=
  View.cover_of_tiled [⟨rC3, p0⟩] S512x16.size (by rfl) y

set_option maxHeartbeats 1000000 in
/-- The body on whole staging buffers: the operands' buffers are left as found, the result's holds `out3_2` of them. -/
theorem sound_kernel3 (c : Dev nD) (E : Set ℕ) (i : grid3.Coords) (arg1 : Memref sig .tc .vmem S512x8192 .f32) (harg1 : arg1.IsWhole) (arg2 : Memref sig .tc .vmem S8192x16 .f32) (harg2 : arg2.IsWhole) (arg3 : Memref sig .tc .vmem S512x16 .f32) (harg3 : arg3.IsWhole)
    (x0 : Vec F S512x8192 .f32) (x1 : Vec F S8192x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__row_matmul_kernel i arg1 harg1 arg2 harg2 arg3 harg3) K := by
  simp only [cc3__row_matmul_kernel_eq_skeleton]; unfold cc3__row_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each
    operand's buffer at its block and the result's at `out3_2` of the two blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the operands' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Ideal.Region4.lean ====
/-
  Region 4: a 2048-row block of Z against another 2048-row block of Z, the second transposed: one
  2048×2048 block of logistic(Z·Zᵀ) per point of the 4×4 grid. Both operand windows read the ONE array Z, so
  the proof data hold it at two half shares. The body's run on whole staging buffers and the pipeline's proof
  data, at any float instance, stated at the region's entry contents `V`.
-/
import proofs.«169699_j12910671692500_1_alg».proof.Proof.Gen.KernelIdeal.Launch
import proofs.«169699_j12910671692500_1_alg».proof.Proof.Gen.KernelIdeal.Skeleton
import proofs.«169699_j12910671692500_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The right operand's staging buffer holds its block at every point, fetched there or carried from an earlier one. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The body reads and writes each staging buffer whole. -/
abbrev rA4 : Rect S2048x16 := Rect.unit (s := S2048x16) ![0, 0] S2048x16.size inb_S2048x16_S2048x16_0_0
abbrev rB4 : Rect S2048x16 := Rect.unit (s := S2048x16) ![0, 0] S2048x16.size inb_S2048x16_S2048x16_0_0
abbrev rC4 : Rect S2048x2048 := Rect.unit (s := S2048x2048) ![0, 0] S2048x2048.size inb_S2048x2048_S2048x2048_0_0

/-- What the body leaves in the result's staging buffer: its one whole-buffer store of the payload of the two loads. -/
def out4_2 (x0 : Vec F S2048x16 .f32) (x1 : Vec F S2048x16 .f32) : Vec F S2048x2048 .f32 :=
  View.canon [⟨rC4, k4_pay1 (View.ld x0 rA4) (View.ld x1 rB4)⟩]

/-- The one store covers the buffer. -/
theorem cover4_2 (p0 : Vec F S2048x2048 .f32) (y : S2048x2048.Idx) :
    ∃ pc ∈ ([⟨rC4, p0⟩] : List (View.Piece (Elt F) S2048x2048 .f32)), y ∈ pc.1.set :=
  View.cover_of_tiled [⟨rC4, p0⟩] S2048x2048.size (by rfl) y

set_option maxHeartbeats 1000000 in
/-- The body on whole staging buffers: the operands' buffers are left as found, the result's holds `out4_2` of them. -/
theorem sound_kernel4 (c : Dev nD) (E : Set ℕ) (i : grid4.Coords) (arg2 : Memref sig .tc .vmem S2048x16 .f32) (harg2 : arg2.IsWhole) (arg3 : Memref sig .tc .vmem S2048x16 .f32) (harg3 : arg3.IsWhole) (arg4 : Memref sig .tc .vmem S2048x2048 .f32) (harg4 : arg4.IsWhole)
    (x0 : Vec F S2048x16 .f32) (x1 : Vec F S2048x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4__decode_kernel i arg2 harg2 arg3 harg3 arg4 harg4) K := by
  simp only [cc4__decode_kernel_eq_skeleton]; unfold cc4__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data on core `c`: the arrays as the region finds them; after the body at point `t` each
    operand's buffer at its block and the result's at `out4_2` of the two blocks; nothing owed; the two
    operand windows, which read one array, hold it at the two halves of the full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the operands' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.Ideal.SharedOperand.lean ====
/-
  Region 4's two operand windows read ONE array, Z. The pipeline's proof data then hold that array twice, once per
  window, at the two halves of the full share; the result array is held once, at the full share. Here: the core's
  unscoped buffers at known contents split into those three holdings and the rest, and the three holdings — the two
  halves still at the entry contents — join back into the unscoped buffers at contents that differ only at the
  result array.
-/
import proofs.«169699_j12910671692500_1_alg».proof.Proof.Gen.KernelIdeal.Launch
import proofs.«169699_j12910671692500_1_alg».proof.Proof.Gen.KernelIdeal.Skeleton
import proofs.«169699_j12910671692500_1_alg».proof.Proof.Gen.KernelIdeal.Points
import proofs.«169699_j12910671692500_1_alg».proof.Proof.Ideal.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's windows name two distinct buffers. -/
theorem arr_image4 : Finset.univ.image (Pipeline.arrRef (cfgs 4).spec) = ({main_v3, main_v4} : Finset (Ref sig .tc)) := by decide

/-- The shares the proof data hold the three windows' arrays at. -/
theorem share4_0 (c : Dev nD) : (dat4 V c).share 0 = fullShare.left := rfl
theorem share4_1 (c : Dev nD) : (dat4 V c).share 1 = fullShare.right := rfl
theorem share4_2 (c : Dev nD) : (dat4 V c).share 2 = fullShare := rfl

/-- Out: the unscoped buffers at `V c` are Z's array cut in two halves, the result array whole, and the rest. -/
theorem arrays_of_bufs4 (c : Dev nD) :
    (unscopedBufs c (V c) : sProp 𝕄) ⊢ iprop((dat4 V c).arrays ((dat4 V c).arrAt · 0) ∗ Pipeline.unscopedRest spec4 c (V c)) := by
  rw [Pipeline.unscopedBufs_split₀ cfgs 4 winFacts₀4.arr_unscoped c (V c)]
  refine sep_mono ?_ .rfl
  unfold Pipeline.arrBufs Dat.arrays
  rw [arr_image4, bigSep_W4, bigSep_insert (by decide), bigSep_singleton,
    (arr_whole4 0).set_eq_univ, (arr_whole4 2).set_eq_univ, share4_0, share4_1, share4_2]
  show iprop(((c : Thread nD τ).loc main_v3 ↦{fullShare} V c main_v3) ∗ ((c : Thread nD τ).loc main_v4 ↦{fullShare} V c main_v4)) ⊢ _
  exact (sep_mono (pointsTo_share (PosShare.mem_left_op_right fullShare)).1 .rfl).trans sep_assoc.1

/-- Back: the two halves of Z's array and the whole result array, beside the rest, are the core's unscoped buffers at
    any contents that have the result array at `F 2`, and agree with `V c` everywhere else. -/
theorem bufs_of_arrays4 (c : Dev nD) (V' : (b : Ref sig .tc) → Buf (Elt F) ((c : Thread nD τ).loc b))
    (F' : (w : Fin cfg4.W) → Buf (Elt F) ((cfg4.win w).arr.view.loc (c : Thread nD τ)))
    (h0 : F' 0 = V c main_v3) (h1 : F' 1 = V c main_v3) (h2 : F' 2 = V' main_v4)
    (hrest : ∀ b, b ≠ main_v4 → V' b = V c b) :
    iprop((dat4 V c).arrays F' ∗ Pipeline.unscopedRest spec4 c (V c)) ⊢ (unscopedBufs c V' : sProp 𝕄) := by
  rw [Pipeline.unscopedBufs_split₀ cfgs 4 winFacts₀4.arr_unscoped c V']
  refine sep_mono ?_ (Entails.of_eq ?_)
  · unfold Pipeline.arrBufs Dat.arrays
    rw [arr_image4, bigSep_W4, bigSep_insert (by decide), bigSep_singleton,
      (arr_whole4 0).set_eq_univ, (arr_whole4 2).set_eq_univ, share4_0, share4_1, share4_2, h0, h1, h2,
      hrest main_v3 (by decide)]
    show _ ⊢ iprop(((c : Thread nD τ).loc main_v3 ↦{fullShare} V c main_v3) ∗ ((c : Thread nD τ).loc main_v4 ↦{fullShare} V' main_v4))
    exact sep_assoc.2.trans (sep_mono (pointsTo_share (PosShare.mem_left_op_right fullShare)).2 .rfl)
  · unfold Pipeline.unscopedRest
    exact (bigSep_congr fun b hb => by
      rw [hrest b (fun e => (Finset.mem_sdiff.mp hb).2 (Finset.mem_image.mpr ⟨2, Finset.mem_univ _, e.symm⟩))]).symm

end Cert.KernelIdeal.Hand
end
-- ==== Proof.Ideal.Run.lean ====
/-
  The whole program as a chain of its five regions, at any float instance.

  Between two regions the core's unscoped buffers are held whole at known contents: `E0` is the launch memory, and
  region k turns `Ek` into `E(k+1)`, which differs from `Ek` exactly at the region's result array — there it holds
  what the pipeline's write-backs leave. Each region enters from "every unscoped buffer at `Ek`" and leaves at "every
  unscoped buffer at `E(k+1)`"; the launch theorem for a sequence of regions then says that every weakly fair
  execution terminates in a state whose memory is `E5` at every unscoped buffer (`run_all`). The frame claim and the
  value claim are both read off `E5`: an argument's buffer walks back through the five steps to the launch memory,
  and the two results are regions 3's and 4's arrays.
-/
import proofs.«169699_j12910671692500_1_alg».proof.Proof.Gen.KernelIdeal.Launch
import proofs.«169699_j12910671692500_1_alg».proof.Proof.Gen.KernelIdeal.Skeleton
import proofs.«169699_j12910671692500_1_alg».proof.Proof.Gen.KernelIdeal.Points
import proofs.«169699_j12910671692500_1_alg».proof.Proof.Ideal.Region0
import proofs.«169699_j12910671692500_1_alg».proof.Proof.Ideal.Region1
import proofs.«169699_j12910671692500_1_alg».proof.Proof.Ideal.Region2
import proofs.«169699_j12910671692500_1_alg».proof.Proof.Ideal.Region3
import proofs.«169699_j12910671692500_1_alg».proof.Proof.Ideal.Region4
import proofs.«169699_j12910671692500_1_alg».proof.Proof.Ideal.SharedOperand
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the region boundaries -/

/-- Core `c`'s buffers at launch. -/
abbrev E0 : Dev nD → Valuation τ sig (Elt F) := fun c b => m ((c : Dev nD), b)
/-- The contents region 0 is entered from, read at the TensorCore's references. -/
abbrev U0 : (c : Dev nD) → (b : Ref sig .tc) → Buf (Elt F) ((c : Thread nD τ).loc b) := fun c b => E0 m c b
/-- After region 0: its arrays at what the pipeline leaves, every other buffer as entered. -/
def E1 (c : Dev nD) : Valuation τ sig (Elt F) :=
  Pipeline.withArrays spec0 c (E0 m c) fun w => (dat0 (U0 m) c).arrAt w cfg0.N
theorem E1_arr (c : Dev nD) (w : Fin cfg0.W) :
    E1 m c (Proc.devRef .tc (Pipeline.arrRef spec0 w)) = (dat0 (U0 m) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m c (Proc.devRef .tc b) = E0 m c (Proc.devRef .tc b) := by
  unfold E1; exact Pipeline.withArrays_of_ne spec0 c _ _ b hb
theorem hF0 (c : Dev nD) (w : Fin cfg0.W) : (dat0 (U0 m) c).arrAt w cfg0.N = (fun b : Ref sig .tc => E1 m c b) (Pipeline.arrRef spec0 w) :=
  (E1_arr m c w).symm
theorem hrest0 (c : Dev nD) : ∀ b : Ref sig .tc, b ∉ Finset.univ.image (Pipeline.arrRef spec0) → E1 m c b = E0 m c b :=
  fun b hb => E1_of_ne m c b fun w e => hb (Finset.mem_image.mpr ⟨w, Finset.mem_univ _, e⟩)

/-- The contents region 1 is entered from, read at the TensorCore's references. -/
abbrev U1 : (c : Dev nD) → (b : Ref sig .tc) → Buf (Elt F) ((c : Thread nD τ).loc b) := fun c b => E1 m c b
/-- After region 1: its arrays at what the pipeline leaves, every other buffer as entered. -/
def E2 (c : Dev nD) : Valuation τ sig (Elt F) :=
  Pipeline.withArrays spec1 c (E1 m c) fun w => (dat1 (U1 m) c).arrAt w cfg1.N
theorem E2_arr (c : Dev nD) (w : Fin cfg1.W) :
    E2 m c (Proc.devRef .tc (Pipeline.arrRef spec1 w)) = (dat1 (U1 m) c).arrAt w cfg1.N := by
  unfold E2; exact Pipeline.withArrays_arr spec1 launch1.win.arr_inj c _ _ w
theorem E2_of_ne (c : Dev nD) (b : Ref sig .tc) (hb : ∀ w, Pipeline.arrRef spec1 w ≠ b) :
    E2 m c (Proc.devRef .tc b) = E1 m c (Proc.devRef .tc b) := by
  unfold E2; exact Pipeline.withArrays_of_ne spec1 c _ _ b hb
theorem hF1 (c : Dev nD) (w : Fin cfg1.W) : (dat1 (U1 m) c).arrAt w cfg1.N = (fun b : Ref sig .tc => E2 m c b) (Pipeline.arrRef spec1 w) :=
  (E2_arr m c w).symm
theorem hrest1 (c : Dev nD) : ∀ b : Ref sig .tc, b ∉ Finset.univ.image (Pipeline.arrRef spec1) → E2 m c b = E1 m c b :=
  fun b hb => E2_of_ne m c b fun w e => hb (Finset.mem_image.mpr ⟨w, Finset.mem_univ _, e⟩)

/-- The contents region 2 is entered from, read at the TensorCore's references. -/
abbrev U2 : (c : Dev nD) → (b : Ref sig .tc) → Buf (Elt F) ((c : Thread nD τ).loc b) := fun c b => E2 m c b
/-- After region 2: its arrays at what the pipeline leaves, every other buffer as entered. -/
def E3 (c : Dev nD) : Valuation τ sig (Elt F) :=
  Pipeline.withArrays spec2 c (E2 m c) fun w => (dat2 (U2 m) c).arrAt w cfg2.N
theorem E3_arr (c : Dev nD) (w : Fin cfg2.W) :
    E3 m c (Proc.devRef .tc (Pipeline.arrRef spec2 w)) = (dat2 (U2 m) c).arrAt w cfg2.N := by
  unfold E3; exact Pipeline.withArrays_arr spec2 launch2.win.arr_inj c _ _ w
theorem E3_of_ne (c : Dev nD) (b : Ref sig .tc) (hb : ∀ w, Pipeline.arrRef spec2 w ≠ b) :
    E3 m c (Proc.devRef .tc b) = E2 m c (Proc.devRef .tc b) := by
  unfold E3; exact Pipeline.withArrays_of_ne spec2 c _ _ b hb
theorem hF2 (c : Dev nD) (w : Fin cfg2.W) : (dat2 (U2 m) c).arrAt w cfg2.N = (fun b : Ref sig .tc => E3 m c b) (Pipeline.arrRef spec2 w) :=
  (E3_arr m c w).symm
theorem hrest2 (c : Dev nD) : ∀ b : Ref sig .tc, b ∉ Finset.univ.image (Pipeline.arrRef spec2) → E3 m c b = E2 m c b :=
  fun b hb => E3_of_ne m c b fun w e => hb (Finset.mem_image.mpr ⟨w, Finset.mem_univ _, e⟩)

/-- The contents region 3 is entered from, read at the TensorCore's references. -/
abbrev U3 : (c : Dev nD) → (b : Ref sig .tc) → Buf (Elt F) ((c : Thread nD τ).loc b) := fun c b => E3 m c b
/-- After region 3: its arrays at what the pipeline leaves, every other buffer as entered. -/
def E4 (c : Dev nD) : Valuation τ sig (Elt F) :=
  Pipeline.withArrays spec3 c (E3 m c) fun w => (dat3 (U3 m) c).arrAt w cfg3.N
theorem E4_arr (c : Dev nD) (w : Fin cfg3.W) :
    E4 m c (Proc.devRef .tc (Pipeline.arrRef spec3 w)) = (dat3 (U3 m) c).arrAt w cfg3.N := by
  unfold E4; exact Pipeline.withArrays_arr spec3 launch3.win.arr_inj c _ _ w
theorem E4_of_ne (c : Dev nD) (b : Ref sig .tc) (hb : ∀ w, Pipeline.arrRef spec3 w ≠ b) :
    E4 m c (Proc.devRef .tc b) = E3 m c (Proc.devRef .tc b) := by
  unfold E4; exact Pipeline.withArrays_of_ne spec3 c _ _ b hb
theorem hF3 (c : Dev nD) (w : Fin cfg3.W) : (dat3 (U3 m) c).arrAt w cfg3.N = (fun b : Ref sig .tc => E4 m c b) (Pipeline.arrRef spec3 w) :=
  (E4_arr m c w).symm
theorem hrest3 (c : Dev nD) : ∀ b : Ref sig .tc, b ∉ Finset.univ.image (Pipeline.arrRef spec3) → E4 m c b = E3 m c b :=
  fun b hb => E4_of_ne m c b fun w e => hb (Finset.mem_image.mpr ⟨w, Finset.mem_univ _, e⟩)

/-- The contents region 4 is entered from, read at the TensorCore's references. -/
abbrev U4 : (c : Dev nD) → (b : Ref sig .tc) → Buf (Elt F) ((c : Thread nD τ).loc b) := fun c b => E4 m c b
/-- After region 4: its result array at what the pipeline leaves, every other buffer as entered (its two operand
    windows read one array, which it leaves alone). -/
def E5 (c : Dev nD) : Valuation τ sig (Elt F) :=
  Function.update (E4 m c) (Proc.devRef .tc main_v4) ((dat4 (U4 m) c).arrAt 2 cfg4.N)
theorem E5_out (c : Dev nD) : E5 m c (Proc.devRef .tc main_v4) = (dat4 (U4 m) c).arrAt 2 cfg4.N := by
  unfold E5; exact Function.update_self ..
theorem E5_of_ne (c : Dev nD) (b : Ref sig .tc) (hb : b ≠ main_v4) : E5 m c (Proc.devRef .tc b) = E4 m c (Proc.devRef .tc b) := by
  unfold E5; exact Function.update_of_ne (StableHlo.devRef_ne_of_ne hb) ..

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
  | ⟨2, _⟩ => fun c => dat2 (U2 m) c
  | ⟨3, _⟩ => fun c => dat3 (U3 m) c
  | ⟨4, _⟩ => fun c => dat4 (U4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the core's generator register at some state and its dues, at nothing. -/
abbrev R (c : Dev nD) : sProp 𝕄 := iprop((∃ r, prngReg c r) ∗ ∃ W, owes (c : Thread nD τ) (0 : CellTallies nD τ sig Unit) W)
/-- The last thread state without the dues: every unscoped buffer at `E5`, the generator register at some state. -/
abbrev Tₙ (c : Dev nD) : sProp 𝕄 := iprop(StableHlo.held (c : Thread nD τ) (Pipeline.ucRefs τ sig) (E5 m c) ∗ ∃ r, prngReg c r)

/-! ## The regions as segments -/

set_option backward.isDefEq.respectTransparency.types false in
/-- Region 0 over the thread state: entered from every unscoped buffer at `E0`, left at `E1`. Its arrays are split
    out of the unscoped buffers and put back at the exit contents; the generator register goes into the pipeline's
    invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (E0 m c) ∗ R c)
  post c := iprop(StableHlo.held (c : Thread nD τ) (Pipeline.ucRefs τ sig) (E1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (fun b : Ref sig .tc => E1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `E1`, left at `E2`. Its arrays are split
    out of the unscoped buffers and put back at the exit contents; the generator register goes into the pipeline's
    invariant and comes out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (E1 m c) ∗ R c)
  post c := iprop(StableHlo.held (c : Thread nD τ) (Pipeline.ucRefs τ sig) (E2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (fun b : Ref sig .tc => E2 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `E2`, left at `E3`. Its arrays are split
    out of the unscoped buffers and put back at the exit contents; the generator register goes into the pipeline's
    invariant and comes out; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U2 m) c).loose
  hwaits := Pipeline.hwaits_of_owed_zero _ _ _ _ L lv 2 fun _ _ => rfl
  pre c := iprop(StableHlo.held (c : Thread nD τ) (Pipeline.ucRefs τ sig) (E2 m c) ∗ R c)
  post c := iprop(StableHlo.held (c : Thread nD τ) (Pipeline.ucRefs τ sig) (E3 m c) ∗ R c)
  X c := iprop(∃ r, prngReg c r)
  Y c := iprop(∃ r, prngReg c r)
  Z c := Pipeline.unscopedRest (Ix := Unit) (Name := ℕ) (U := UR sig nD τ) (Lvl := ℕ) spec2 c (U2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U2 m c) (fun b : Ref sig .tc => E3 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `E3`, left at `E4`. Its arrays are split
    out of the unscoped buffers and put back at the exit contents; the generator register goes into the pipeline's
    invariant and comes out; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U3 m) c).loose
  hwaits := Pipeline.hwaits_of_owed_zero _ _ _ _ L lv 3 fun _ _ => rfl
  pre c := iprop(StableHlo.held (c : Thread nD τ) (Pipeline.ucRefs τ sig) (E3 m c) ∗ R c)
  post c := iprop(StableHlo.held (c : Thread nD τ) (Pipeline.ucRefs τ sig) (E4 m c) ∗ R c)
  X c := iprop(∃ r, prngReg c r)
  Y c := iprop(∃ r, prngReg c r)
  Z c := Pipeline.unscopedRest (Ix := Unit) (Name := ℕ) (U := UR sig nD τ) (Lvl := ℕ) spec3 c (U3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U3 m c) (fun b : Ref sig .tc => E4 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `E4`, left at `E5`. Its two operand windows
    read ONE array: at entry that buffer's full share is cut in two halves, one per window, and at exit the halves —
    both still at the entry contents, an operand window writing nothing back — are joined again. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (U4 m) c).loose
  hwaits := Pipeline.hwaits_of_owed_zero _ _ _ _ L lv 4 fun _ _ => rfl
  pre c := iprop(StableHlo.held (c : Thread nD τ) (Pipeline.ucRefs τ sig) (E4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (U4 m c)
  hentry c := by
    rw [Pipeline.ownSems0_none]
    have hsplit := arrays_of_bufs4 (U4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest spec4 c (U4 m c))
        ⊢ (unscopedBufs c (fun b : Ref sig .tc => E5 m c b) : sProp 𝕄) :=
      bufs_of_arrays4 (U4 m) c (fun b : Ref sig .tc => E5 m c b) ((pdats m 4 c).arrAt · cfg4.N)
        ((dat4 (U4 m) c).arrAt_in 0 rfl _) ((dat4 (U4 m) c).arrAt_in 1 rfl _) (E5_out m c).symm (fun b hb => E5_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as its five regions, and the launch -/

abbrev segs : List (Pipeline.Seg (pcfgs (F := F)) adm (pdats m) () defs₀ 𝒱₀ L lv) :=
  [ .region (reg0 m), .region (reg1 m), .region (reg2 m), .region (reg3 m), .region (reg4 m) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, in a
    state whose memory holds `E5` at every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E5 m c b)
    (hfin := fun c s' => by
      iintro ⟨⟨Hh, -⟩, HSI⟩
      unfold StableHlo.held
      imodintro
      iapply (pointsTo_read_all (Pipeline.ucRefs τ sig) (fun b => (((c : Thread nD τ)).1, b)) (E5 m c) s')
      isplitl [Hh] <;> iassumption)
    (hQ := fun s h => h)

/-! ## What `E5` holds -/

theorem E5_main_arg0 (c : Dev nD) : E5 m c (Proc.devRef .tc main_arg0) = m ((c : Thread nD τ).loc main_arg0) :=
  calc E5 m c (Proc.devRef .tc main_arg0)
    _ = E4 m c (Proc.devRef .tc main_arg0) := E5_of_ne m c main_arg0 (by decide)
    _ = E3 m c (Proc.devRef .tc main_arg0) := E4_of_ne m c main_arg0 (by decide)
    _ = E2 m c (Proc.devRef .tc main_arg0) := E3_of_ne m c main_arg0 (by decide)
    _ = E1 m c (Proc.devRef .tc main_arg0) := E2_of_ne m c main_arg0 (by decide)
    _ = E0 m c (Proc.devRef .tc main_arg0) := (E1_arr m c 0).trans (((dat0 (U0 m) c).arrAt_in 0 rfl _).trans (A_eq0 (U0 m) c 0))
    _ = m ((c : Thread nD τ).loc main_arg0) := rfl
theorem E5_main_arg1 (c : Dev nD) : E5 m c (Proc.devRef .tc main_arg1) = m ((c : Thread nD τ).loc main_arg1) :=
  calc E5 m c (Proc.devRef .tc main_arg1)
    _ = E4 m c (Proc.devRef .tc main_arg1) := E5_of_ne m c main_arg1 (by decide)
    _ = E3 m c (Proc.devRef .tc main_arg1) := (E4_arr m c 0).trans (((dat3 (U3 m) c).arrAt_in 0 rfl _).trans (A_eq3 (U3 m) c 0))
    _ = E2 m c (Proc.devRef .tc main_arg1) := E3_of_ne m c main_arg1 (by decide)
    _ = E1 m c (Proc.devRef .tc main_arg1) := (E2_arr m c 0).trans (((dat1 (U1 m) c).arrAt_in 0 rfl _).trans (A_eq1 (U1 m) c 0))
    _ = E0 m c (Proc.devRef .tc main_arg1) := E1_of_ne m c main_arg1 (by decide)
    _ = m ((c : Thread nD τ).loc main_arg1) := rfl
theorem E5_main_arg2 (c : Dev nD) : E5 m c (Proc.devRef .tc main_arg2) = m ((c : Thread nD τ).loc main_arg2) :=
  calc E5 m c (Proc.devRef .tc main_arg2)
    _ = E4 m c (Proc.devRef .tc main_arg2) := E5_of_ne m c main_arg2 (by decide)
    _ = E3 m c (Proc.devRef .tc main_arg2) := E4_of_ne m c main_arg2 (by decide)
    _ = E2 m c (Proc.devRef .tc main_arg2) := E3_of_ne m c main_arg2 (by decide)
    _ = E1 m c (Proc.devRef .tc main_arg2) := E2_of_ne m c main_arg2 (by decide)
    _ = E0 m c (Proc.devRef .tc main_arg2) := (E1_arr m c 1).trans (((dat0 (U0 m) c).arrAt_in 1 rfl _).trans (A_eq0 (U0 m) c 1))
    _ = m ((c : Thread nD τ).loc main_arg2) := rfl
theorem E5_main_arg3 (c : Dev nD) : E5 m c (Proc.devRef .tc main_arg3) = m ((c : Thread nD τ).loc main_arg3) :=
  calc E5 m c (Proc.devRef .tc main_arg3)
    _ = E4 m c (Proc.devRef .tc main_arg3) := E5_of_ne m c main_arg3 (by decide)
    _ = E3 m c (Proc.devRef .tc main_arg3) := E4_of_ne m c main_arg3 (by decide)
    _ = E2 m c (Proc.devRef .tc main_arg3) := (E3_arr m c 1).trans (((dat2 (U2 m) c).arrAt_in 1 rfl _).trans (A_eq2 (U2 m) c 1))
    _ = E1 m c (Proc.devRef .tc main_arg3) := E2_of_ne m c main_arg3 (by decide)
    _ = E0 m c (Proc.devRef .tc main_arg3) := E1_of_ne m c main_arg3 (by decide)
    _ = m ((c : Thread nD τ).loc main_arg3) := rfl

/-- The first result, Z, is what region 3 leaves in its result array (region 4 only reads it). -/
theorem E5_main_v3 (c : Dev nD) : E5 m c (Proc.devRef .tc main_v3) = (dat3 (U3 m) c).arrAt 2 cfg3.N :=
  (E5_of_ne m c main_v3 (by decide)).trans (E4_arr m c 2)

/-- Entry contents of the later regions at the arrays they read: what the earlier regions left, or the launch memory. -/
theorem U1_main_arg1 (c : Dev nD) : U1 m c main_arg1 = m ((c : Thread nD τ).loc main_arg1) := E1_of_ne m c main_arg1 (by decide)
theorem U1_main_v0 (c : Dev nD) : U1 m c main_v0 = (dat0 (U0 m) c).arrAt 2 cfg0.N := E1_arr m c 2
theorem U2_main_v1 (c : Dev nD) : U2 m c main_v1 = (dat1 (U1 m) c).arrAt 2 cfg1.N := E2_arr m c 2
theorem U2_main_arg3 (c : Dev nD) : U2 m c main_arg3 = m ((c : Thread nD τ).loc main_arg3) :=
  (E2_of_ne m c main_arg3 (by decide)).trans (E1_of_ne m c main_arg3 (by decide))
theorem U3_main_arg1 (c : Dev nD) : U3 m c main_arg1 = m ((c : Thread nD τ).loc main_arg1) :=
  (E3_of_ne m c main_arg1 (by decide)).trans (((E2_arr m c 0).trans (((dat1 (U1 m) c).arrAt_in 0 rfl _).trans (A_eq1 (U1 m) c 0))).trans (U1_main_arg1 m c))
theorem U3_main_v2 (c : Dev nD) : U3 m c main_v2 = (dat2 (U2 m) c).arrAt 2 cfg2.N := E3_arr m c 2
theorem U4_main_v3 (c : Dev nD) : U4 m c main_v3 = (dat3 (U3 m) c).arrAt 2 cfg3.N := E4_arr m c 2

/-- The frame claim at any float instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (E5_main_arg0 m c),
     (h c _ (mem_uc main_arg1 (by decide))).trans (E5_main_arg1 m c),
     (h c _ (mem_uc main_arg2 (by decide))).trans (E5_main_arg2 m c),
     (h c _ (mem_uc main_arg3 (by decide))).trans (E5_main_arg3 m c)⟩) (run_all m ρ)

end Cert.KernelIdeal.Hand

end
-- ==== Proof.Spec.lean ====
/-
  The mathematics of the two programs, over the extended reals, index by index.

  A two-layer graph convolution with a dot-product decoder: with `adj` an n×n matrix, `X` the n×d features and
  `W1`, `W2` the two layers' weights,

      h = relu(adj · (X · W1)),   Z = relu(adj · (h · W2)),   A = logistic(Z · Zᵀ),

  where a matrix product's entry (p, q) is the sum over the shared axis of the products of row p of the left operand
  and column q of the right, relu clamps below at zero, and logistic x = 1 / (1 + e^(−x)). Both programs compute these
  five products and three pointwise maps in this order; they differ only in how the rows are tiled.
-/
import Idealize.ShloMosaic.PureOps.Ideal.Laws
import Idealize.ShloMosaic.Lib.ValueIdx

noncomputable section

open scoped BigOperators

namespace Cert.Gcn

open Idealize.ShloMosaic Idealize.ShloMosaic.ValueIdx

/-- An M×N matrix of extended reals, as a function of the index. -/
abbrev Mat (M N : ℕ) : Type := (⟨2, ![M, N]⟩ : Shape).Idx → EReal

/-- The matrix product. -/
def mm {M K N : ℕ} (A : Mat M K) (B : Mat K N) : Mat M N :=
  fun j => ∑ k : Fin K, A (ix2 (j 0) k) * B (ix2 k (j 1))

theorem mm_apply {M K N : ℕ} (A : Mat M K) (B : Mat K N) (p : Fin M) (q : Fin N) :
    mm A B (ix2 p q) = ∑ k : Fin K, A (ix2 p k) * B (ix2 k q) := rfl

/-- Clamping below at zero. -/
def relu {M N : ℕ} (A : Mat M N) : Mat M N := fun j => max (A j) 0

/-- The transpose. -/
def tr {M N : ℕ} (A : Mat M N) : Mat N M := fun j => A (ix2 (j 1) (j 0))

theorem tr_apply {M N : ℕ} (A : Mat M N) (p : Fin N) (q : Fin M) : tr A (ix2 p q) = A (ix2 q p) := rfl

/-- The logistic function, entry by entry. -/
def sig {M N : ℕ} (A : Mat M N) : Mat M N := fun j => Ideal.logistic (A j)

/-- The node embeddings. -/
def Zf (X : Mat 8192 512) (adj : Mat 8192 8192) (W1 : Mat 512 32) (W2 : Mat 32 16) : Mat 8192 16 :=
  relu (mm adj (mm (relu (mm adj (mm X W1))) W2))

/-- The decoded adjacency. -/
def Af (Z : Mat 8192 16) : Mat 8192 8192 := sig (mm Z (tr Z))

/-- `1.0` denotes one. -/
theorem ofBits_one : Ideal.ofBits .f32 0x3F800000#32 = 1 := by
  simp [Ideal.ofBits, Ideal.ieee, -EReal.coe_mul]; norm_num

end Cert.Gcn

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.Ideal.Value0.lean ====
/-
  Region 0's result array at the ideal instance: X·W1, entry by entry.

  At grid point t the body multiplies rows 1024·t … 1024·t + 1023 of X by the whole of W1 and the pipeline writes the
  1024×32 product back as row block t of the result; the eight blocks tile the 8192 rows.
-/
import proofs.«169699_j12910671692500_1_alg».proof.Proof.Ideal.Region0
import proofs.«169699_j12910671692500_1_alg».proof.Proof.Spec
import proofs.«169699_j12910671692500_1_alg».proof.Proof.LibMatDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The matrix unit's product of a 1024×512 block and a 512×32 block into the zero accumulator, at an entry. -/
theorem dot0 (x0 : FVec Ideal S1024x512 .f32) (x1 : FVec Ideal S512x32 .f32) (p : Fin 1024) (q : Fin 32) :
    FloatOps.matmul dot_S1024x512_S512x32_S1024x32_1_0_0_1_n_n none x0 x1 (constant (F := Ideal) S1024x32 .f32 0x00000000#32) (ix2 p q)
      = ∑ k : Fin 512, x0 (ix2 p k) * x1 (ix2 k q) :=
  mat_dot_zero dot_S1024x512_S512x32_S1024x32_1_0_0_1_n_n none rfl rfl
    (fun i q => by
      unfold DotDims.lhsIdx
      rw [dif_neg (show ¬(0 : Fin S1024x512.rank) ∈ dot_S1024x512_S512x32_S1024x32_1_0_0_1_n_n.lhsBatch by decide), dif_pos (show (0 : Fin S1024x512.rank) ∈ dot_S1024x512_S512x32_S1024x32_1_0_0_1_n_n.lhsNonContracting by decide)]
      rfl)
    (fun i q => dot_S1024x512_S512x32_S1024x32_1_0_0_1_n_n.lhsIdx_val_of_single rfl i q)
    (fun i q => dot_S1024x512_S512x32_S1024x32_1_0_0_1_n_n.rhsIdx_val_of_single rfl i q)
    (fun i q => by
      unfold DotDims.rhsIdx
      rw [dif_neg (show ¬(1 : Fin S512x32.rank) ∈ dot_S1024x512_S512x32_S1024x32_1_0_0_1_n_n.rhsBatch by decide), dif_pos (show (1 : Fin S512x32.rank) ∈ dot_S1024x512_S512x32_S1024x32_1_0_0_1_n_n.rhsNonContracting by decide)]
      rfl)
    x0 x1 p q

/-- The body's stored value at an entry of the block. -/
theorem pay0_apply (x0 : Vec Ideal S1024x512 .f32) (x1 : Vec Ideal S512x32 .f32) (p : Fin 1024) (q : Fin 32) :
    k0_pay1 (F := Ideal) x0 x1 (ix2 p q) = ∑ k : Fin 512, x0 (ix2 p k) * x1 (ix2 k q) := by
  unfold k0_pay1
  exact dot0 x0 x1 p q

/-- An entry of the stored block, when the left block is rows of `A` starting at row `r - p` and the right block is `B`. -/
theorem entry0 (x0 : Vec Ideal S1024x512 .f32) (x1 : Vec Ideal S512x32 .f32) (A : Gcn.Mat 8192 512) (B : Gcn.Mat 512 32)
    (p : Fin 1024) (q : Fin 32) (r : Fin 8192) (h0 : ∀ k : Fin 512, x0 (ix2 p k) = A (ix2 r k)) (h1 : ∀ k : Fin 512, x1 (ix2 k q) = B (ix2 k q)) :
    k0_pay1 (F := Ideal) x0 x1 (ix2 p q) = Gcn.mm A B (ix2 r q) := by
  rw [pay0_apply]
  show _ = Gcn.mm A B (ix2 r q)
  rw [Gcn.mm_apply]
  exact Finset.sum_congr rfl fun k _ => by rw [h0, h1]

theorem hz0 : (![0, 0] : Fin 2 → Nat) = fun _ => 0 := funext fun a => by fin_cases a <;> rfl

/-- Where the windows' blocks sit at grid point `t`: the left operand's and the result's at row block `t`, the right
    operand's always at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `1024·t … 1024·t + 1023` of its array. -/
theorem iblk0_0_apply (c : Dev nD) (t : Fin cfg0.N) (x : S1024x512.Idx) (i : S8192x512.Idx)
    (h0 : (i 0).val = 1024 * t.val + (x 0).val) (h1 : (i 1).val = (x 1).val) :
    (iblk0 V c 0 t : Vec Ideal S1024x512 .f32) x = (V c main_arg0 : S8192x512.Idx → EReal) i := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t 0 * 1024 + 1 * (x 0).val = (i 0).val; rw [e0, h0]; omega
  | ⟨1, _⟩ => show win0_0.index t 1 * 512 + 1 * (x 1).val = (i 1).val; rw [e1, h1]; omega

/-- The right operand's block at every point is its whole array. -/
theorem iblk0_1_apply (c : Dev nD) (t : Fin cfg0.N) (x : S512x32.Idx) :
    (iblk0 V c 1 t : Vec Ideal S512x32 .f32) x = (V c main_arg2 : S512x32.Idx → EReal) x := by
  obtain ⟨-, -, e2, e3, -, -⟩ := idx_facts0 t
  unfold iblk0
  rw [View.read_apply]
  show V c main_arg2 _ = V c main_arg2 _
  congr 1
  funext a
  apply Fin.ext
  match a with
  | ⟨0, _⟩ => show win0_1.index t 0 * 512 + 1 * (x 0).val = (x 0).val; rw [e2]; omega
  | ⟨1, _⟩ => show win0_1.index t 1 * 32 + 1 * (x 1).val = (x 1).val; rw [e3]; omega

/-- What point `t` writes back is block `t` of the product. -/
theorem flushed0_eq (c : Dev nD) (t : Fin cfg0.N) :
    (dat0 V c).flushed 2 t = ((cfg0.win 2).blk t).view.read (Elt Ideal) (Gcn.mm (V c main_arg0) (V c main_arg2)) := by
  show (cfg0.win 2).cut (grid0.coords t) ((dat0 V c).after 2 t) = _
  rw [after0_2]
  unfold out0_2
  rw [View.canon_unit_zero hz0]
  simp only [View.ld_unit_zero (S := S1024x512) hz0, View.ld_unit_zero (S := S512x32) hz0]
  obtain ⟨-, -, -, -, e4, e5⟩ := idx_facts0 t
  have ht : t.val < 8 := by have := t.isLt; have hN : cfg0.N = 8 := N_0; omega
  funext y
  obtain ⟨p, q, rfl⟩ : ∃ (p : Fin 1024) (q : Fin 32), y = ix2 p q := ⟨y 0, y 1, eq_ix2 y⟩
  rw [View.read_apply]
  have he : ((cfg0.win 2).blk t).view.emb (ix2 p q) = (ix2 (⟨1024 * t.val + p.val, by omega⟩ : Fin 8192) q : S8192x32.Idx) := by
    funext a
    apply Fin.ext
    match a with
    | ⟨0, _⟩ => show win0_2.index t 0 * 1024 + 1 * p.val = 1024 * t.val + p.val; rw [e4]; omega
    | ⟨1, _⟩ => show win0_2.index t 1 * 32 + 1 * q.val = q.val; rw [e5]; omega
  rw [he]
  exact entry0 _ _ (V c main_arg0) (V c main_arg2) p q ⟨1024 * t.val + p.val, by omega⟩
    (fun k => iblk0_0_apply V c t (ix2 p k) (ix2 (⟨1024 * t.val + p.val, by omega⟩ : Fin 8192) k) rfl rfl)
    (fun k => iblk0_1_apply V c t (ix2 k q))

/-- An index of the result array is in point `t`'s block iff each coordinate is in the block's range. -/
theorem mem_blk0 (t : Fin cfg0.N) (i : S8192x32.Idx) :
    i ∈ ((cfg0.win 2).blk t).view.set ↔ ∀ a : Fin 2, win0_2.index t a * S1024x32.size a ≤ (i a).val ∧ (i a).val < win0_2.index t a * S1024x32.size a + S1024x32.size a := by
  show i ∈ ((View.whole main_v0).slice (win0_2.rect t)).set ↔ _
  rw [View.set_slice_whole, Rect.mem_set_unit]
  exact Iff.rfl

/-- The result array after the region: the product, entry by entry (row `r` is written by point `r / 1024`). -/
theorem final0 (c : Dev nD) : (dat0 V c).arrAt 2 cfg0.N = Gcn.mm (V c main_arg0) (V c main_arg2) :=
  (dat0 V c).arrAt_eq_of_cover 2 (Gcn.mm (V c main_arg0) (V c main_arg2)) (fun t _ => flushed0_eq V c t) fun i => by
    have hi0 : (i 0).val < 8192 := (i 0).isLt
    have hi1 : (i 1).val < 32 := (i 1).isLt
    have hN : cfg0.N = 8 := N_0
    let t : Fin cfg0.N := ⟨(i 0).val / 1024, by rw [hN]; omega⟩
    obtain ⟨-, -, -, -, e4, e5⟩ := idx_facts0 t
    refine ⟨t, flush0_2 t, ?_⟩
    rw [mem_blk0]
    intro a
    match a with
    | ⟨0, _⟩ => show win0_2.index t 0 * 1024 ≤ (i 0).val ∧ (i 0).val < win0_2.index t 0 * 1024 + 1024; rw [e4]; show (i 0).val / 1024 * 1024 ≤ (i 0).val ∧ (i 0).val < (i 0).val / 1024 * 1024 + 1024; omega
    | ⟨1, _⟩ => show win0_2.index t 1 * 32 ≤ (i 1).val ∧ (i 1).val < win0_2.index t 1 * 32 + 32; rw [e5]; omega

end Cert.KernelIdeal.Hand

end
-- ==== Proof.Ideal.Value1.lean ====
/-
  Region 1's result array at the ideal instance: h = relu(adj·(X·W1)), entry by entry.

  At grid point t the body multiplies rows 512·t … 512·t + 511 of adj by the whole of region 0's result, clamps the
  product below at zero, and the pipeline writes the 512×32 block back as row block t; the sixteen blocks tile the
  8192 rows.
-/
import proofs.«169699_j12910671692500_1_alg».proof.Proof.Ideal.Region1
import proofs.«169699_j12910671692500_1_alg».proof.Proof.Spec
import proofs.«169699_j12910671692500_1_alg».proof.Proof.LibMatDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The matrix unit's product of a 512×8192 block and a 8192×32 block into the zero accumulator, at an entry. -/
theorem dot1 (x0 : FVec Ideal S512x8192 .f32) (x1 : FVec Ideal S8192x32 .f32) (p : Fin 512) (q : Fin 32) :
    FloatOps.matmul dot_S512x8192_S8192x32_S512x32_1_0_0_1_n_n none x0 x1 (constant (F := Ideal) S512x32 .f32 0x00000000#32) (ix2 p q)
      = ∑ k : Fin 8192, x0 (ix2 p k) * x1 (ix2 k q) :=
  mat_dot_zero dot_S512x8192_S8192x32_S512x32_1_0_0_1_n_n none rfl rfl
    (fun i q => by
      unfold DotDims.lhsIdx
      rw [dif_neg (show ¬(0 : Fin S512x8192.rank) ∈ dot_S512x8192_S8192x32_S512x32_1_0_0_1_n_n.lhsBatch by decide), dif_pos (show (0 : Fin S512x8192.rank) ∈ dot_S512x8192_S8192x32_S512x32_1_0_0_1_n_n.lhsNonContracting by decide)]
      rfl)
    (fun i q => dot_S512x8192_S8192x32_S512x32_1_0_0_1_n_n.lhsIdx_val_of_single rfl i q)
    (fun i q => dot_S512x8192_S8192x32_S512x32_1_0_0_1_n_n.rhsIdx_val_of_single rfl i q)
    (fun i q => by
      unfold DotDims.rhsIdx
      rw [dif_neg (show ¬(1 : Fin S8192x32.rank) ∈ dot_S512x8192_S8192x32_S512x32_1_0_0_1_n_n.rhsBatch by decide), dif_pos (show (1 : Fin S8192x32.rank) ∈ dot_S512x8192_S8192x32_S512x32_1_0_0_1_n_n.rhsNonContracting by decide)]
      rfl)
    x0 x1 p q

/-- The body's stored value at an entry of the block. -/
theorem pay1_apply (x0 : Vec Ideal S512x8192 .f32) (x1 : Vec Ideal S8192x32 .f32) (p : Fin 512) (q : Fin 32) :
    k1_pay1 (F := Ideal) x0 x1 (ix2 p q) = max (∑ k : Fin 8192, x0 (ix2 p k) * x1 (ix2 k q)) 0 := by
  unfold k1_pay1
  show max (FloatOps.matmul dot_S512x8192_S8192x32_S512x32_1_0_0_1_n_n none x0 (shapeCast S8192x32 x1 shapeCasts_S8192x32_S8192x32) (constant (F := Ideal) S512x32 .f32 0x00000000#32) (ix2 p q)) (Ideal.ofBits .f32 0x00000000#32) = _
  rw [shapeCast_self, Ideal.ofBits_zero_f32]
  exact congrArg (max · 0) (dot1 x0 x1 p q)

/-- An entry of the stored block, when the left block is rows of `A` starting at row `r - p` and the right block is `B`. -/
theorem entry1 (x0 : Vec Ideal S512x8192 .f32) (x1 : Vec Ideal S8192x32 .f32) (A : Gcn.Mat 8192 8192) (B : Gcn.Mat 8192 32)
    (p : Fin 512) (q : Fin 32) (r : Fin 8192) (h0 : ∀ k : Fin 8192, x0 (ix2 p k) = A (ix2 r k)) (h1 : ∀ k : Fin 8192, x1 (ix2 k q) = B (ix2 k q)) :
    k1_pay1 (F := Ideal) x0 x1 (ix2 p q) = Gcn.relu (Gcn.mm A B) (ix2 r q) := by
  rw [pay1_apply]
  show _ = max (Gcn.mm A B (ix2 r q)) 0
  rw [Gcn.mm_apply]
  exact congrArg (max · 0) (Finset.sum_congr rfl fun k _ => by rw [h0, h1])

theorem hz1 : (![0, 0] : Fin 2 → Nat) = fun _ => 0 := funext fun a => by fin_cases a <;> rfl

/-- Where the windows' blocks sit at grid point `t`: the left operand's and the result's at row block `t`, the right
    operand's always at the origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `512·t … 512·t + 511` of its array. -/
theorem iblk1_0_apply (c : Dev nD) (t : Fin cfg1.N) (x : S512x8192.Idx) (i : S8192x8192.Idx)
    (h0 : (i 0).val = 512 * t.val + (x 0).val) (h1 : (i 1).val = (x 1).val) :
    (iblk1 V c 0 t : Vec Ideal S512x8192 .f32) x = (V c main_arg1 : S8192x8192.Idx → EReal) i := by
  obtain ⟨e0, e1, -, -, -, -⟩ := idx_facts1 t
  unfold iblk1
  rw [View.read_apply]
  show V c main_arg1 _ = V c main_arg1 _
  congr 1
  funext a
  apply Fin.ext
  match a with
  | ⟨0, _⟩ => show win1_0.index t 0 * 512 + 1 * (x 0).val = (i 0).val; rw [e0, h0]; omega
  | ⟨1, _⟩ => show win1_0.index t 1 * 8192 + 1 * (x 1).val = (i 1).val; rw [e1, h1]; omega

/-- The right operand's block at every point is its whole array. -/
theorem iblk1_1_apply (c : Dev nD) (t : Fin cfg1.N) (x : S8192x32.Idx) :
    (iblk1 V c 1 t : Vec Ideal S8192x32 .f32) x = (V c main_v0 : S8192x32.Idx → EReal) x := by
  obtain ⟨-, -, e2, e3, -, -⟩ := idx_facts1 t
  unfold iblk1
  rw [View.read_apply]
  show V c main_v0 _ = V c main_v0 _
  congr 1
  funext a
  apply Fin.ext
  match a with
  | ⟨0, _⟩ => show win1_1.index t 0 * 8192 + 1 * (x 0).val = (x 0).val; rw [e2]; omega
  | ⟨1, _⟩ => show win1_1.index t 1 * 32 + 1 * (x 1).val = (x 1).val; rw [e3]; omega

/-- What point `t` writes back is block `t` of the product. -/
theorem flushed1_eq (c : Dev nD) (t : Fin cfg1.N) :
    (dat1 V c).flushed 2 t = ((cfg1.win 2).blk t).view.read (Elt Ideal) (Gcn.relu (Gcn.mm (V c main_arg1) (V c main_v0))) := by
  show (cfg1.win 2).cut (grid1.coords t) ((dat1 V c).after 2 t) = _
  rw [after1_2]
  unfold out1_2
  rw [View.canon_unit_zero hz1]
  simp only [View.ld_unit_zero (S := S512x8192) hz1, View.ld_unit_zero (S := S8192x32) hz1]
  obtain ⟨-, -, -, -, e4, e5⟩ := idx_facts1 t
  have ht : t.val < 16 := by have := t.isLt; have hN : cfg1.N = 16 := N_1; omega
  funext y
  obtain ⟨p, q, rfl⟩ : ∃ (p : Fin 512) (q : Fin 32), y = ix2 p q := ⟨y 0, y 1, eq_ix2 y⟩
  rw [View.read_apply]
  have he : ((cfg1.win 2).blk t).view.emb (ix2 p q) = (ix2 (⟨512 * t.val + p.val, by omega⟩ : Fin 8192) q : S8192x32.Idx) := by
    funext a
    apply Fin.ext
    match a with
    | ⟨0, _⟩ => show win1_2.index t 0 * 512 + 1 * p.val = 512 * t.val + p.val; rw [e4]; omega
    | ⟨1, _⟩ => show win1_2.index t 1 * 32 + 1 * q.val = q.val; rw [e5]; omega
  rw [he]
  exact entry1 _ _ (V c main_arg1) (V c main_v0) p q ⟨512 * t.val + p.val, by omega⟩
    (fun k => iblk1_0_apply V c t (ix2 p k) (ix2 (⟨512 * t.val + p.val, by omega⟩ : Fin 8192) k) rfl rfl)
    (fun k => iblk1_1_apply V c t (ix2 k q))

/-- An index of the result array is in point `t`'s block iff each coordinate is in the block's range. -/
theorem mem_blk1 (t : Fin cfg1.N) (i : S8192x32.Idx) :
    i ∈ ((cfg1.win 2).blk t).view.set ↔ ∀ a : Fin 2, win1_2.index t a * S512x32.size a ≤ (i a).val ∧ (i a).val < win1_2.index t a * S512x32.size a + S512x32.size a := by
  show i ∈ ((View.whole main_v1).slice (win1_2.rect t)).set ↔ _
  rw [View.set_slice_whole, Rect.mem_set_unit]
  exact Iff.rfl

/-- The result array after the region: the product, entry by entry (row `r` is written by point `r / 512`). -/
theorem final1 (c : Dev nD) : (dat1 V c).arrAt 2 cfg1.N = Gcn.relu (Gcn.mm (V c main_arg1) (V c main_v0)) :=
  (dat1 V c).arrAt_eq_of_cover 2 (Gcn.relu (Gcn.mm (V c main_arg1) (V c main_v0))) (fun t _ => flushed1_eq V c t) fun i => by
    have hi0 : (i 0).val < 8192 := (i 0).isLt
    have hi1 : (i 1).val < 32 := (i 1).isLt
    have hN : cfg1.N = 16 := N_1
    let t : Fin cfg1.N := ⟨(i 0).val / 512, by rw [hN]; omega⟩
    obtain ⟨-, -, -, -, e4, e5⟩ := idx_facts1 t
    refine ⟨t, flush1_2 t, ?_⟩
    rw [mem_blk1]
    intro a
    match a with
    | ⟨0, _⟩ => show win1_2.index t 0 * 512 ≤ (i 0).val ∧ (i 0).val < win1_2.index t 0 * 512 + 512; rw [e4]; show (i 0).val / 512 * 512 ≤ (i 0).val ∧ (i 0).val < (i 0).val / 512 * 512 + 512; omega
    | ⟨1, _⟩ => show win1_2.index t 1 * 32 ≤ (i 1).val ∧ (i 1).val < win1_2.index t 1 * 32 + 32; rw [e5]; omega

end Cert.KernelIdeal.Hand

end
-- ==== Proof.Ideal.Value2.lean ====
/-
  Region 2's result array at the ideal instance: h·W2, entry by entry.

  At grid point t the body multiplies rows 1024·t … 1024·t + 1023 of h by the whole of W2 and the pipeline writes the
  1024×16 product back as row block t of the result; the eight blocks tile the 8192 rows.
-/
import proofs.«169699_j12910671692500_1_alg».proof.Proof.Ideal.Region2
import proofs.«169699_j12910671692500_1_alg».proof.Proof.Spec
import proofs.«169699_j12910671692500_1_alg».proof.Proof.LibMatDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The matrix unit's product of a 1024×32 block and a 32×16 block into the zero accumulator, at an entry. -/
theorem dot2 (x0 : FVec Ideal S1024x32 .f32) (x1 : FVec Ideal S32x16 .f32) (p : Fin 1024) (q : Fin 16) :
    FloatOps.matmul dot_S1024x32_S32x16_S1024x16_1_0_0_1_n_n none x0 x1 (constant (F := Ideal) S1024x16 .f32 0x00000000#32) (ix2 p q)
      = ∑ k : Fin 32, x0 (ix2 p k) * x1 (ix2 k q) :=
  mat_dot_zero dot_S1024x32_S32x16_S1024x16_1_0_0_1_n_n none rfl rfl
    (fun i q => by
      unfold DotDims.lhsIdx
      rw [dif_neg (show ¬(0 : Fin S1024x32.rank) ∈ dot_S1024x32_S32x16_S1024x16_1_0_0_1_n_n.lhsBatch by decide), dif_pos (show (0 : Fin S1024x32.rank) ∈ dot_S1024x32_S32x16_S1024x16_1_0_0_1_n_n.lhsNonContracting by decide)]
      rfl)
    (fun i q => dot_S1024x32_S32x16_S1024x16_1_0_0_1_n_n.lhsIdx_val_of_single rfl i q)
    (fun i q => dot_S1024x32_S32x16_S1024x16_1_0_0_1_n_n.rhsIdx_val_of_single rfl i q)
    (fun i q => by
      unfold DotDims.rhsIdx
      rw [dif_neg (show ¬(1 : Fin S32x16.rank) ∈ dot_S1024x32_S32x16_S1024x16_1_0_0_1_n_n.rhsBatch by decide), dif_pos (show (1 : Fin S32x16.rank) ∈ dot_S1024x32_S32x16_S1024x16_1_0_0_1_n_n.rhsNonContracting by decide)]
      rfl)
    x0 x1 p q

/-- The body's stored value at an entry of the block. -/
theorem pay2_apply (x0 : Vec Ideal S1024x32 .f32) (x1 : Vec Ideal S32x16 .f32) (p : Fin 1024) (q : Fin 16) :
    k2_pay1 (F := Ideal) x0 x1 (ix2 p q) = ∑ k : Fin 32, x0 (ix2 p k) * x1 (ix2 k q) := by
  unfold k2_pay1
  show FloatOps.matmul dot_S1024x32_S32x16_S1024x16_1_0_0_1_n_n none (shapeCast S1024x32 x0 shapeCasts_S1024x32_S1024x32) x1 (constant (F := Ideal) S1024x16 .f32 0x00000000#32) (ix2 p q) = _
  rw [shapeCast_self]
  exact dot2 x0 x1 p q

/-- An entry of the stored block, when the left block is rows of `A` starting at row `r - p` and the right block is `B`. -/
theorem entry2 (x0 : Vec Ideal S1024x32 .f32) (x1 : Vec Ideal S32x16 .f32) (A : Gcn.Mat 8192 32) (B : Gcn.Mat 32 16)
    (p : Fin 1024) (q : Fin 16) (r : Fin 8192) (h0 : ∀ k : Fin 32, x0 (ix2 p k) = A (ix2 r k)) (h1 : ∀ k : Fin 32, x1 (ix2 k q) = B (ix2 k q)) :
    k2_pay1 (F := Ideal) x0 x1 (ix2 p q) = Gcn.mm A B (ix2 r q) := by
  rw [pay2_apply]
  show _ = Gcn.mm A B (ix2 r q)
  rw [Gcn.mm_apply]
  exact Finset.sum_congr rfl fun k _ => by rw [h0, h1]

theorem hz2 : (![0, 0] : Fin 2 → Nat) = fun _ => 0 := funext fun a => by fin_cases a <;> rfl

/-- Where the windows' blocks sit at grid point `t`: the left operand's and the result's at row block `t`, the right
    operand's always at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `1024·t … 1024·t + 1023` of its array. -/
theorem iblk2_0_apply (c : Dev nD) (t : Fin cfg2.N) (x : S1024x32.Idx) (i : S8192x32.Idx)
    (h0 : (i 0).val = 1024 * t.val + (x 0).val) (h1 : (i 1).val = (x 1).val) :
    (iblk2 V c 0 t : Vec Ideal S1024x32 .f32) x = (V c main_v1 : S8192x32.Idx → EReal) i := by
  obtain ⟨e0, e1, -, -, -, -⟩ := idx_facts2 t
  unfold iblk2
  rw [View.read_apply]
  show V c main_v1 _ = V c main_v1 _
  congr 1
  funext a
  apply Fin.ext
  match a with
  | ⟨0, _⟩ => show win2_0.index t 0 * 1024 + 1 * (x 0).val = (i 0).val; rw [e0, h0]; omega
  | ⟨1, _⟩ => show win2_0.index t 1 * 32 + 1 * (x 1).val = (i 1).val; rw [e1, h1]; omega

/-- The right operand's block at every point is its whole array. -/
theorem iblk2_1_apply (c : Dev nD) (t : Fin cfg2.N) (x : S32x16.Idx) :
    (iblk2 V c 1 t : Vec Ideal S32x16 .f32) x = (V c main_arg3 : S32x16.Idx → EReal) x := by
  obtain ⟨-, -, e2, e3, -, -⟩ := idx_facts2 t
  unfold iblk2
  rw [View.read_apply]
  show V c main_arg3 _ = V c main_arg3 _
  congr 1
  funext a
  apply Fin.ext
  match a with
  | ⟨0, _⟩ => show win2_1.index t 0 * 32 + 1 * (x 0).val = (x 0).val; rw [e2]; omega
  | ⟨1, _⟩ => show win2_1.index t 1 * 16 + 1 * (x 1).val = (x 1).val; rw [e3]; omega

/-- What point `t` writes back is block `t` of the product. -/
theorem flushed2_eq (c : Dev nD) (t : Fin cfg2.N) :
    (dat2 V c).flushed 2 t = ((cfg2.win 2).blk t).view.read (Elt Ideal) (Gcn.mm (V c main_v1) (V c main_arg3)) := by
  show (cfg2.win 2).cut (grid2.coords t) ((dat2 V c).after 2 t) = _
  rw [after2_2]
  unfold out2_2
  rw [View.canon_unit_zero hz2]
  simp only [View.ld_unit_zero (S := S1024x32) hz2, View.ld_unit_zero (S := S32x16) hz2]
  obtain ⟨-, -, -, -, e4, e5⟩ := idx_facts2 t
  have ht : t.val < 8 := by have := t.isLt; have hN : cfg2.N = 8 := N_2; omega
  funext y
  obtain ⟨p, q, rfl⟩ : ∃ (p : Fin 1024) (q : Fin 16), y = ix2 p q := ⟨y 0, y 1, eq_ix2 y⟩
  rw [View.read_apply]
  have he : ((cfg2.win 2).blk t).view.emb (ix2 p q) = (ix2 (⟨1024 * t.val + p.val, by omega⟩ : Fin 8192) q : S8192x16.Idx) := by
    funext a
    apply Fin.ext
    match a with
    | ⟨0, _⟩ => show win2_2.index t 0 * 1024 + 1 * p.val = 1024 * t.val + p.val; rw [e4]; omega
    | ⟨1, _⟩ => show win2_2.index t 1 * 16 + 1 * q.val = q.val; rw [e5]; omega
  rw [he]
  exact entry2 _ _ (V c main_v1) (V c main_arg3) p q ⟨1024 * t.val + p.val, by omega⟩
    (fun k => iblk2_0_apply V c t (ix2 p k) (ix2 (⟨1024 * t.val + p.val, by omega⟩ : Fin 8192) k) rfl rfl)
    (fun k => iblk2_1_apply V c t (ix2 k q))

/-- An index of the result array is in point `t`'s block iff each coordinate is in the block's range. -/
theorem mem_blk2 (t : Fin cfg2.N) (i : S8192x16.Idx) :
    i ∈ ((cfg2.win 2).blk t).view.set ↔ ∀ a : Fin 2, win2_2.index t a * S1024x16.size a ≤ (i a).val ∧ (i a).val < win2_2.index t a * S1024x16.size a + S1024x16.size a := by
  show i ∈ ((View.whole main_v2).slice (win2_2.rect t)).set ↔ _
  rw [View.set_slice_whole, Rect.mem_set_unit]
  exact Iff.rfl

/-- The result array after the region: the product, entry by entry (row `r` is written by point `r / 1024`). -/
theorem final2 (c : Dev nD) : (dat2 V c).arrAt 2 cfg2.N = Gcn.mm (V c main_v1) (V c main_arg3) :=
  (dat2 V c).arrAt_eq_of_cover 2 (Gcn.mm (V c main_v1) (V c main_arg3)) (fun t _ => flushed2_eq V c t) fun i => by
    have hi0 : (i 0).val < 8192 := (i 0).isLt
    have hi1 : (i 1).val < 16 := (i 1).isLt
    have hN : cfg2.N = 8 := N_2
    let t : Fin cfg2.N := ⟨(i 0).val / 1024, by rw [hN]; omega⟩
    obtain ⟨-, -, -, -, e4, e5⟩ := idx_facts2 t
    refine ⟨t, flush2_2 t, ?_⟩
    rw [mem_blk2]
    intro a
    match a with
    | ⟨0, _⟩ => show win2_2.index t 0 * 1024 ≤ (i 0).val ∧ (i 0).val < win2_2.index t 0 * 1024 + 1024; rw [e4]; show (i 0).val / 1024 * 1024 ≤ (i 0).val ∧ (i 0).val < (i 0).val / 1024 * 1024 + 1024; omega
    | ⟨1, _⟩ => show win2_2.index t 1 * 16 ≤ (i 1).val ∧ (i 1).val < win2_2.index t 1 * 16 + 16; rw [e5]; omega

end Cert.KernelIdeal.Hand

end
-- ==== Proof.Ideal.Value3.lean ====
/-
  Region 3's result array at the ideal instance: Z = relu(adj·(h·W2)), entry by entry.

  At grid point t the body multiplies rows 512·t … 512·t + 511 of adj by the whole of region 2's result, clamps the
  product below at zero, and the pipeline writes the 512×16 block back as row block t; the sixteen blocks tile the
  8192 rows.
-/
import proofs.«169699_j12910671692500_1_alg».proof.Proof.Ideal.Region3
import proofs.«169699_j12910671692500_1_alg».proof.Proof.Spec
import proofs.«169699_j12910671692500_1_alg».proof.Proof.LibMatDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The matrix unit's product of a 512×8192 block and a 8192×16 block into the zero accumulator, at an entry. -/
theorem dot3 (x0 : FVec Ideal S512x8192 .f32) (x1 : FVec Ideal S8192x16 .f32) (p : Fin 512) (q : Fin 16) :
    FloatOps.matmul dot_S512x8192_S8192x16_S512x16_1_0_0_1_n_n none x0 x1 (constant (F := Ideal) S512x16 .f32 0x00000000#32) (ix2 p q)
      = ∑ k : Fin 8192, x0 (ix2 p k) * x1 (ix2 k q) :=
  mat_dot_zero dot_S512x8192_S8192x16_S512x16_1_0_0_1_n_n none rfl rfl
    (fun i q => by
      unfold DotDims.lhsIdx
      rw [dif_neg (show ¬(0 : Fin S512x8192.rank) ∈ dot_S512x8192_S8192x16_S512x16_1_0_0_1_n_n.lhsBatch by decide), dif_pos (show (0 : Fin S512x8192.rank) ∈ dot_S512x8192_S8192x16_S512x16_1_0_0_1_n_n.lhsNonContracting by decide)]
      rfl)
    (fun i q => dot_S512x8192_S8192x16_S512x16_1_0_0_1_n_n.lhsIdx_val_of_single rfl i q)
    (fun i q => dot_S512x8192_S8192x16_S512x16_1_0_0_1_n_n.rhsIdx_val_of_single rfl i q)
    (fun i q => by
      unfold DotDims.rhsIdx
      rw [dif_neg (show ¬(1 : Fin S8192x16.rank) ∈ dot_S512x8192_S8192x16_S512x16_1_0_0_1_n_n.rhsBatch by decide), dif_pos (show (1 : Fin S8192x16.rank) ∈ dot_S512x8192_S8192x16_S512x16_1_0_0_1_n_n.rhsNonContracting by decide)]
      rfl)
    x0 x1 p q

/-- The body's stored value at an entry of the block. -/
theorem pay3_apply (x0 : Vec Ideal S512x8192 .f32) (x1 : Vec Ideal S8192x16 .f32) (p : Fin 512) (q : Fin 16) :
    k3_pay1 (F := Ideal) x0 x1 (ix2 p q) = max (∑ k : Fin 8192, x0 (ix2 p k) * x1 (ix2 k q)) 0 := by
  unfold k3_pay1
  show max (FloatOps.matmul dot_S512x8192_S8192x16_S512x16_1_0_0_1_n_n none x0 (shapeCast S8192x16 x1 shapeCasts_S8192x16_S8192x16) (constant (F := Ideal) S512x16 .f32 0x00000000#32) (ix2 p q)) (Ideal.ofBits .f32 0x00000000#32) = _
  rw [shapeCast_self, Ideal.ofBits_zero_f32]
  exact congrArg (max · 0) (dot3 x0 x1 p q)

/-- An entry of the stored block, when the left block is rows of `A` starting at row `r - p` and the right block is `B`. -/
theorem entry3 (x0 : Vec Ideal S512x8192 .f32) (x1 : Vec Ideal S8192x16 .f32) (A : Gcn.Mat 8192 8192) (B : Gcn.Mat 8192 16)
    (p : Fin 512) (q : Fin 16) (r : Fin 8192) (h0 : ∀ k : Fin 8192, x0 (ix2 p k) = A (ix2 r k)) (h1 : ∀ k : Fin 8192, x1 (ix2 k q) = B (ix2 k q)) :
    k3_pay1 (F := Ideal) x0 x1 (ix2 p q) = Gcn.relu (Gcn.mm A B) (ix2 r q) := by
  rw [pay3_apply]
  show _ = max (Gcn.mm A B (ix2 r q)) 0
  rw [Gcn.mm_apply]
  exact congrArg (max · 0) (Finset.sum_congr rfl fun k _ => by rw [h0, h1])

theorem hz3 : (![0, 0] : Fin 2 → Nat) = fun _ => 0 := funext fun a => by fin_cases a <;> rfl

/-- Where the windows' blocks sit at grid point `t`: the left operand's and the result's at row block `t`, the right
    operand's always at the origin. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point `t` is rows `512·t … 512·t + 511` of its array. -/
theorem iblk3_0_apply (c : Dev nD) (t : Fin cfg3.N) (x : S512x8192.Idx) (i : S8192x8192.Idx)
    (h0 : (i 0).val = 512 * t.val + (x 0).val) (h1 : (i 1).val = (x 1).val) :
    (iblk3 V c 0 t : Vec Ideal S512x8192 .f32) x = (V c main_arg1 : S8192x8192.Idx → EReal) i := by
  obtain ⟨e0, e1, -, -, -, -⟩ := idx_facts3 t
  unfold iblk3
  rw [View.read_apply]
  show V c main_arg1 _ = V c main_arg1 _
  congr 1
  funext a
  apply Fin.ext
  match a with
  | ⟨0, _⟩ => show win3_0.index t 0 * 512 + 1 * (x 0).val = (i 0).val; rw [e0, h0]; omega
  | ⟨1, _⟩ => show win3_0.index t 1 * 8192 + 1 * (x 1).val = (i 1).val; rw [e1, h1]; omega

/-- The right operand's block at every point is its whole array. -/
theorem iblk3_1_apply (c : Dev nD) (t : Fin cfg3.N) (x : S8192x16.Idx) :
    (iblk3 V c 1 t : Vec Ideal S8192x16 .f32) x = (V c main_v2 : S8192x16.Idx → EReal) x := by
  obtain ⟨-, -, e2, e3, -, -⟩ := idx_facts3 t
  unfold iblk3
  rw [View.read_apply]
  show V c main_v2 _ = V c main_v2 _
  congr 1
  funext a
  apply Fin.ext
  match a with
  | ⟨0, _⟩ => show win3_1.index t 0 * 8192 + 1 * (x 0).val = (x 0).val; rw [e2]; omega
  | ⟨1, _⟩ => show win3_1.index t 1 * 16 + 1 * (x 1).val = (x 1).val; rw [e3]; omega

/-- What point `t` writes back is block `t` of the product. -/
theorem flushed3_eq (c : Dev nD) (t : Fin cfg3.N) :
    (dat3 V c).flushed 2 t = ((cfg3.win 2).blk t).view.read (Elt Ideal) (Gcn.relu (Gcn.mm (V c main_arg1) (V c main_v2))) := by
  show (cfg3.win 2).cut (grid3.coords t) ((dat3 V c).after 2 t) = _
  rw [after3_2]
  unfold out3_2
  rw [View.canon_unit_zero hz3]
  simp only [View.ld_unit_zero (S := S512x8192) hz3, View.ld_unit_zero (S := S8192x16) hz3]
  obtain ⟨-, -, -, -, e4, e5⟩ := idx_facts3 t
  have ht : t.val < 16 := by have := t.isLt; have hN : cfg3.N = 16 := N_3; omega
  funext y
  obtain ⟨p, q, rfl⟩ : ∃ (p : Fin 512) (q : Fin 16), y = ix2 p q := ⟨y 0, y 1, eq_ix2 y⟩
  rw [View.read_apply]
  have he : ((cfg3.win 2).blk t).view.emb (ix2 p q) = (ix2 (⟨512 * t.val + p.val, by omega⟩ : Fin 8192) q : S8192x16.Idx) := by
    funext a
    apply Fin.ext
    match a with
    | ⟨0, _⟩ => show win3_2.index t 0 * 512 + 1 * p.val = 512 * t.val + p.val; rw [e4]; omega
    | ⟨1, _⟩ => show win3_2.index t 1 * 16 + 1 * q.val = q.val; rw [e5]; omega
  rw [he]
  exact entry3 _ _ (V c main_arg1) (V c main_v2) p q ⟨512 * t.val + p.val, by omega⟩
    (fun k => iblk3_0_apply V c t (ix2 p k) (ix2 (⟨512 * t.val + p.val, by omega⟩ : Fin 8192) k) rfl rfl)
    (fun k => iblk3_1_apply V c t (ix2 k q))

/-- An index of the result array is in point `t`'s block iff each coordinate is in the block's range. -/
theorem mem_blk3 (t : Fin cfg3.N) (i : S8192x16.Idx) :
    i ∈ ((cfg3.win 2).blk t).view.set ↔ ∀ a : Fin 2, win3_2.index t a * S512x16.size a ≤ (i a).val ∧ (i a).val < win3_2.index t a * S512x16.size a + S512x16.size a := by
  show i ∈ ((View.whole main_v3).slice (win3_2.rect t)).set ↔ _
  rw [View.set_slice_whole, Rect.mem_set_unit]
  exact Iff.rfl

/-- The result array after the region: the product, entry by entry (row `r` is written by point `r / 512`). -/
theorem final3 (c : Dev nD) : (dat3 V c).arrAt 2 cfg3.N = Gcn.relu (Gcn.mm (V c main_arg1) (V c main_v2)) :=
  (dat3 V c).arrAt_eq_of_cover 2 (Gcn.relu (Gcn.mm (V c main_arg1) (V c main_v2))) (fun t _ => flushed3_eq V c t) fun i => by
    have hi0 : (i 0).val < 8192 := (i 0).isLt
    have hi1 : (i 1).val < 16 := (i 1).isLt
    have hN : cfg3.N = 16 := N_3
    let t : Fin cfg3.N := ⟨(i 0).val / 512, by rw [hN]; omega⟩
    obtain ⟨-, -, -, -, e4, e5⟩ := idx_facts3 t
    refine ⟨t, flush3_2 t, ?_⟩
    rw [mem_blk3]
    intro a
    match a with
    | ⟨0, _⟩ => show win3_2.index t 0 * 512 ≤ (i 0).val ∧ (i 0).val < win3_2.index t 0 * 512 + 512; rw [e4]; show (i 0).val / 512 * 512 ≤ (i 0).val ∧ (i 0).val < (i 0).val / 512 * 512 + 512; omega
    | ⟨1, _⟩ => show win3_2.index t 1 * 16 ≤ (i 1).val ∧ (i 1).val < win3_2.index t 1 * 16 + 16; rw [e5]; omega

end Cert.KernelIdeal.Hand

end
-- ==== Proof.Ideal.Value4.lean ====
/-
  Region 4's result array at the ideal instance: logistic(Z·Zᵀ), entry by entry.

  The grid is 4×4. At point (a, b) the body takes rows 2048·a … of Z as the left block and rows 2048·b … of Z as the
  right block, transposes the right block, multiplies, applies the logistic function, and the pipeline writes the
  2048×2048 result back as block (a, b); the sixteen blocks tile the 8192×8192 array. Entry (i, j) of block (a, b) is
  therefore logistic of the sum over k of Z[2048·a + i, k] · Z[2048·b + j, k], which is entry
  (2048·a + i, 2048·b + j) of logistic(Z·Zᵀ).
-/
import proofs.«169699_j12910671692500_1_alg».proof.Proof.Ideal.Region4
import proofs.«169699_j12910671692500_1_alg».proof.Proof.Spec
import proofs.«169699_j12910671692500_1_alg».proof.Proof.LibMatDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The matrix unit's product of a 2048×16 block and a 16×2048 block into the zero accumulator, at an entry. -/
theorem dot4 (x0 : FVec Ideal S2048x16 .f32) (x1 : FVec Ideal S16x2048 .f32) (p : Fin 2048) (q : Fin 2048) :
    FloatOps.matmul dot_S2048x16_S16x2048_S2048x2048_1_0_0_1_n_n none x0 x1 (constant (F := Ideal) S2048x2048 .f32 0x00000000#32) (ix2 p q)
      = ∑ k : Fin 16, x0 (ix2 p k) * x1 (ix2 k q) :=
  mat_dot_zero dot_S2048x16_S16x2048_S2048x2048_1_0_0_1_n_n none rfl rfl
    (fun i q => by
      unfold DotDims.lhsIdx
      rw [dif_neg (show ¬(0 : Fin S2048x16.rank) ∈ dot_S2048x16_S16x2048_S2048x2048_1_0_0_1_n_n.lhsBatch by decide), dif_pos (show (0 : Fin S2048x16.rank) ∈ dot_S2048x16_S16x2048_S2048x2048_1_0_0_1_n_n.lhsNonContracting by decide)]
      rfl)
    (fun i q => dot_S2048x16_S16x2048_S2048x2048_1_0_0_1_n_n.lhsIdx_val_of_single rfl i q)
    (fun i q => dot_S2048x16_S16x2048_S2048x2048_1_0_0_1_n_n.rhsIdx_val_of_single rfl i q)
    (fun i q => by
      unfold DotDims.rhsIdx
      rw [dif_neg (show ¬(1 : Fin S16x2048.rank) ∈ dot_S2048x16_S16x2048_S2048x2048_1_0_0_1_n_n.rhsBatch by decide), dif_pos (show (1 : Fin S16x2048.rank) ∈ dot_S2048x16_S16x2048_S2048x2048_1_0_0_1_n_n.rhsNonContracting by decide)]
      rfl)
    x0 x1 p q

/-- The body's stored value at an entry of the block: the logistic of the dot product of row `p` of the left block
    and row `q` of the right block. -/
theorem pay4_apply (x0 : Vec Ideal S2048x16 .f32) (x1 : Vec Ideal S2048x16 .f32) (p : Fin 2048) (q : Fin 2048) :
    k4_pay1 (F := Ideal) x0 x1 (ix2 p q) = Ideal.logistic (∑ k : Fin 16, x0 (ix2 p k) * x1 (ix2 q k)) := by
  unfold k4_pay1
  show Ideal.logistic (FloatOps.matmul dot_S2048x16_S16x2048_S2048x2048_1_0_0_1_n_n none (shapeCast S2048x16 x0 shapeCasts_S2048x16_S2048x16)
    (transpose S16x2048 [1, 0] (shapeCast S2048x16 x1 shapeCasts_S2048x16_S2048x16) transposes_S2048x16_p1_0_S16x2048)
    (constant (F := Ideal) S2048x2048 .f32 0x00000000#32) (ix2 p q)) = _
  rw [shapeCast_self, shapeCast_self, dot4]
  refine congrArg Ideal.logistic (Finset.sum_congr rfl fun k _ => ?_)
  rw [transpose_ix2_apply]

/-- An entry of the stored block, when the left block is rows of `Z` from row `r - p` on and the right block is rows
    of `Z` from row `s - q` on. -/
theorem entry4 (x0 : Vec Ideal S2048x16 .f32) (x1 : Vec Ideal S2048x16 .f32) (Z : Gcn.Mat 8192 16)
    (p q : Fin 2048) (r s : Fin 8192) (h0 : ∀ k : Fin 16, x0 (ix2 p k) = Z (ix2 r k)) (h1 : ∀ k : Fin 16, x1 (ix2 q k) = Z (ix2 s k)) :
    k4_pay1 (F := Ideal) x0 x1 (ix2 p q) = Gcn.Af Z (ix2 r s) := by
  rw [pay4_apply]
  show _ = Ideal.logistic (Gcn.mm Z (Gcn.tr Z) (ix2 r s))
  rw [Gcn.mm_apply]
  exact congrArg Ideal.logistic (Finset.sum_congr rfl fun k _ => by rw [h0, h1, Gcn.tr_apply])

theorem hz4 : (![0, 0] : Fin 2 → Nat) = fun _ => 0 := funext fun a => by fin_cases a <;> rfl

/-- Where the windows' blocks sit at the grid's point number `t`, which is point (t / 4, t % 4): the left operand's
    at row block t / 4, the right operand's at row block t % 4, the result's at block (t / 4, t % 4). -/
theorem idx_facts4 : ∀ t : Fin cfg4.N, win4_0.index t (0 : Fin 2) = t.val / 4 ∧ win4_0.index t (1 : Fin 2) = 0
    ∧ win4_1.index t (0 : Fin 2) = t.val % 4 ∧ win4_1.index t (1 : Fin 2) = 0
    ∧ win4_2.index t (0 : Fin 2) = t.val / 4 ∧ win4_2.index t (1 : Fin 2) = t.val % 4 :=
  (by decide +kernel : ∀ t : Fin grid4.N, _)

/-- Every block of the result is some point's. -/
theorem idx_onto4 : ∀ (a b : Fin 4), ∃ t : Fin cfg4.N, t.val / 4 = a.val ∧ t.val % 4 = b.val :=
  (by decide +kernel : ∀ (a b : Fin 4), ∃ t : Fin grid4.N, t.val / 4 = a.val ∧ t.val % 4 = b.val)

/-- The left operand's block at point `t` is rows `2048·(t / 4) …` of Z. -/
theorem iblk4_0_apply (c : Dev nD) (t : Fin cfg4.N) (x : S2048x16.Idx) (i : S8192x16.Idx)
    (h0 : (i 0).val = 2048 * (t.val / 4) + (x 0).val) (h1 : (i 1).val = (x 1).val) :
    (iblk4 V c 0 t : Vec Ideal S2048x16 .f32) x = (V c main_v3 : S8192x16.Idx → EReal) i := by
  obtain ⟨e0, e1, -, -, -, -⟩ := idx_facts4 t
  unfold iblk4
  rw [View.read_apply]
  show V c main_v3 _ = V c main_v3 _
  congr 1
  funext a
  apply Fin.ext
  match a with
  | ⟨0, _⟩ => show win4_0.index t 0 * 2048 + 1 * (x 0).val = (i 0).val; rw [e0, h0]; omega
  | ⟨1, _⟩ => show win4_0.index t 1 * 16 + 1 * (x 1).val = (i 1).val; rw [e1, h1]; omega

/-- The right operand's block at point `t` is rows `2048·(t % 4) …` of Z. -/
theorem iblk4_1_apply (c : Dev nD) (t : Fin cfg4.N) (x : S2048x16.Idx) (i : S8192x16.Idx)
    (h0 : (i 0).val = 2048 * (t.val % 4) + (x 0).val) (h1 : (i 1).val = (x 1).val) :
    (iblk4 V c 1 t : Vec Ideal S2048x16 .f32) x = (V c main_v3 : S8192x16.Idx → EReal) i := by
  obtain ⟨-, -, e2, e3, -, -⟩ := idx_facts4 t
  unfold iblk4
  rw [View.read_apply]
  show V c main_v3 _ = V c main_v3 _
  congr 1
  funext a
  apply Fin.ext
  match a with
  | ⟨0, _⟩ => show win4_1.index t 0 * 2048 + 1 * (x 0).val = (i 0).val; rw [e2, h0]; omega
  | ⟨1, _⟩ => show win4_1.index t 1 * 16 + 1 * (x 1).val = (i 1).val; rw [e3, h1]; omega

/-- What point `t` writes back is block (t / 4, t % 4) of logistic(Z·Zᵀ). -/
theorem flushed4_eq (c : Dev nD) (t : Fin cfg4.N) :
    (dat4 V c).flushed 2 t = ((cfg4.win 2).blk t).view.read (Elt Ideal) (Gcn.Af (V c main_v3)) := by
  show (cfg4.win 2).cut (grid4.coords t) ((dat4 V c).after 2 t) = _
  rw [after4_2]
  unfold out4_2
  rw [View.canon_unit_zero hz4]
  simp only [View.ld_unit_zero (S := S2048x16) hz4]
  obtain ⟨-, -, -, -, e4, e5⟩ := idx_facts4 t
  have ht : t.val < 16 := by have := t.isLt; have hN : cfg4.N = 16 := N_4; omega
  funext y
  obtain ⟨p, q, rfl⟩ : ∃ (p : Fin 2048) (q : Fin 2048), y = ix2 p q := ⟨y 0, y 1, eq_ix2 y⟩
  rw [View.read_apply]
  have he : ((cfg4.win 2).blk t).view.emb (ix2 p q) = (ix2 (⟨2048 * (t.val / 4) + p.val, by omega⟩ : Fin 8192) (⟨2048 * (t.val % 4) + q.val, by omega⟩ : Fin 8192) : S8192x8192.Idx) := by
    funext a
    apply Fin.ext
    match a with
    | ⟨0, _⟩ => show win4_2.index t 0 * 2048 + 1 * p.val = 2048 * (t.val / 4) + p.val; rw [e4]; omega
    | ⟨1, _⟩ => show win4_2.index t 1 * 2048 + 1 * q.val = 2048 * (t.val % 4) + q.val; rw [e5]; omega
  rw [he]
  exact entry4 _ _ (V c main_v3) p q ⟨2048 * (t.val / 4) + p.val, by omega⟩ ⟨2048 * (t.val % 4) + q.val, by omega⟩
    (fun k => iblk4_0_apply V c t (ix2 p k) (ix2 (⟨2048 * (t.val / 4) + p.val, by omega⟩ : Fin 8192) k) rfl rfl)
    (fun k => iblk4_1_apply V c t (ix2 q k) (ix2 (⟨2048 * (t.val % 4) + q.val, by omega⟩ : Fin 8192) k) rfl rfl)

/-- An index of the result array is in point `t`'s block iff each coordinate is in the block's range. -/
theorem mem_blk4 (t : Fin cfg4.N) (i : S8192x8192.Idx) :
    i ∈ ((cfg4.win 2).blk t).view.set ↔ ∀ a : Fin 2, win4_2.index t a * S2048x2048.size a ≤ (i a).val ∧ (i a).val < win4_2.index t a * S2048x2048.size a + S2048x2048.size a := by
  show i ∈ ((View.whole main_v4).slice (win4_2.rect t)).set ↔ _
  rw [View.set_slice_whole, Rect.mem_set_unit]
  exact Iff.rfl

/-- The result array after the region: logistic(Z·Zᵀ), entry by entry (entry (i, j) is written by point
    (i / 2048, j / 2048)). -/
theorem final4 (c : Dev nD) : (dat4 V c).arrAt 2 cfg4.N = Gcn.Af (V c main_v3) :=
  (dat4 V c).arrAt_eq_of_cover 2 (Gcn.Af (V c main_v3)) (fun t _ => flushed4_eq V c t) fun i => by
    have hi0 : (i 0).val < 8192 := (i 0).isLt
    have hi1 : (i 1).val < 8192 := (i 1).isLt
    obtain ⟨t, ht0, ht1⟩ := idx_onto4 ⟨(i 0).val / 2048, by omega⟩ ⟨(i 1).val / 2048, by omega⟩
    have ht0' : t.val / 4 = (i 0).val / 2048 := ht0
    have ht1' : t.val % 4 = (i 1).val / 2048 := ht1
    obtain ⟨-, -, -, -, e4, e5⟩ := idx_facts4 t
    refine ⟨t, flush4_2 t, ?_⟩
    rw [mem_blk4]
    intro a
    match a with
    | ⟨0, _⟩ => show win4_2.index t 0 * 2048 ≤ (i 0).val ∧ (i 0).val < win4_2.index t 0 * 2048 + 2048; rw [e4, ht0']; omega
    | ⟨1, _⟩ => show win4_2.index t 1 * 2048 ≤ (i 1).val ∧ (i 1).val < win4_2.index t 1 * 2048 + 2048; rw [e5, ht1']; omega

end Cert.KernelIdeal.Hand

end
-- ==== Proof.Ideal.Result.lean ====
/-
  The idealized kernel's two results as the specification's functions of the launch memory.

  Region by region: each region's result array is the specification's product (clamped, for regions 1 and 3; under
  the logistic function, for region 4) of the arrays the region reads, and those are either argument arrays, which no
  region changes, or an earlier region's result. Composing the five gives Z = Zf(X, adj, W1, W2) in region 3's
  result array and Af(Z) in region 4's.
-/
import proofs.«169699_j12910671692500_1_alg».proof.Proof.Ideal.Run
import proofs.«169699_j12910671692500_1_alg».proof.Proof.Ideal.Value0
import proofs.«169699_j12910671692500_1_alg».proof.Proof.Ideal.Value1
import proofs.«169699_j12910671692500_1_alg».proof.Proof.Ideal.Value2
import proofs.«169699_j12910671692500_1_alg».proof.Proof.Ideal.Value3
import proofs.«169699_j12910671692500_1_alg».proof.Proof.Ideal.Value4

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- The four argument arrays, as matrices. -/
abbrev aX (c : Dev nD) : Gcn.Mat 8192 512 := m ((c : Thread nD τ).loc main_arg0)
abbrev aAdj (c : Dev nD) : Gcn.Mat 8192 8192 := m ((c : Thread nD τ).loc main_arg1)
abbrev aW1 (c : Dev nD) : Gcn.Mat 512 32 := m ((c : Thread nD τ).loc main_arg2)
abbrev aW2 (c : Dev nD) : Gcn.Mat 32 16 := m ((c : Thread nD τ).loc main_arg3)

/-- Region 0 leaves X·W1. -/
theorem left0 (c : Dev nD) : U1 m c main_v0 = Gcn.mm (aX m c) (aW1 m c) :=
  (U1_main_v0 m c).trans (final0 (U0 m) c)

/-- Region 1 leaves h = relu(adj·(X·W1)). -/
theorem left1 (c : Dev nD) : U2 m c main_v1 = Gcn.relu (Gcn.mm (aAdj m c) (Gcn.mm (aX m c) (aW1 m c))) :=
  (U2_main_v1 m c).trans ((final1 (U1 m) c).trans (by rw [U1_main_arg1 m c, left0 m c]))

/-- Region 2 leaves h·W2. -/
theorem left2 (c : Dev nD) : U3 m c main_v2 = Gcn.mm (Gcn.relu (Gcn.mm (aAdj m c) (Gcn.mm (aX m c) (aW1 m c)))) (aW2 m c) :=
  (U3_main_v2 m c).trans ((final2 (U2 m) c).trans (by rw [U2_main_arg3 m c, left1 m c]))

/-- Region 3 leaves Z. -/
theorem left3 (c : Dev nD) : U4 m c main_v3 = Gcn.Zf (aX m c) (aAdj m c) (aW1 m c) (aW2 m c) :=
  (U4_main_v3 m c).trans ((final3 (U3 m) c).trans (by rw [U3_main_arg1 m c, left2 m c]; rfl))

/-- The first result. -/
theorem result_Z (c : Dev nD) : E5 m c (Proc.devRef .tc main_v3) = Gcn.Zf (aX m c) (aAdj m c) (aW1 m c) (aW2 m c) :=
  (E5_of_ne m c main_v3 (by decide)).trans (left3 m c)

/-- The second result. -/
theorem result_A (c : Dev nD) : E5 m c (Proc.devRef .tc main_v4) = Gcn.Af (Gcn.Zf (aX m c) (aAdj m c) (aW1 m c) (aW2 m c)) :=
  (E5_out m c).trans ((final4 (U4 m) c).trans (by rw [left3 m c]))

/-- Every weakly fair execution of the idealized kernel terminates with its two results at the specification's
    functions of the launch memory's argument arrays, and those arrays as launched. -/
theorem run_value : θ_run defs (onTc (τ := τ) (main (F := Ideal))) ⟨m, fun _ => 0, ρ⟩ (fun r => ∀ c : Dev nD,
      r.2.mem ((c.tc : Thread nD τ).loc main_v3) = Gcn.Zf (aX m c) (aAdj m c) (aW1 m c) (aW2 m c)
      ∧ r.2.mem ((c.tc : Thread nD τ).loc main_v4) = Gcn.Af (Gcn.Zf (aX m c) (aAdj m c) (aW1 m c) (aW2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (result_Z m c),
     (h c _ (mem_uc main_v4 (by decide))).trans (result_A m c),
     (h c _ (mem_uc main_arg0 (by decide))).trans (E5_main_arg0 m c),
     (h c _ (mem_uc main_arg1 (by decide))).trans (E5_main_arg1 m c),
     (h c _ (mem_uc main_arg2 (by decide))).trans (E5_main_arg2 m c),
     (h c _ (mem_uc main_arg3 (by decide))).trans (E5_main_arg3 m c)⟩) (run_all m ρ)

end Cert.KernelIdeal.Hand

end
-- ==== Proof.LibHostMatDot.lean ====
/-
  The host's matrix product of two rank-2 operands, `x · y`, read at an entry.

  For dimension numbers `d` over operands of shapes [M, K] and [K, N] and a result of shape [M, N] whose one
  contracted axis is the second of the left operand and the first of the right — given as the four coordinate
  facts of `d`'s operand index maps — a host `dot_general` at the ideal instance is, at entry (p, q),

      Σ_{k < K} lhs[p, k] · rhs[k, q],

  the same sum a matrix unit's product into the zero accumulator reads as.  The contraction's index type is
  re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- The host's `x · y` at entry (p, q): the sum over the shared axis of the products of row `p` of the left operand
    and column `q` of the right. The hypotheses say where the record's operand index maps read: the left operand
    at (row of the entry, contraction position), the right at (contraction position, column of the entry). -/
theorem host_mat_dot {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibBcastInDim.lean ====
/-
  A `broadcast_in_dim` of small shapes read at an index given by coordinates: a scalar spread over any shape; a
  length-`a` vector set up as the column `[a, 1]`; a column `[a, 1]` repeated along the rows to `[a, b]`; a length-`b`
  vector set up as the row `[1, b]`; a row `[1, b]` repeated down the columns to `[a, b]`. Each reads the operand at the
  coordinates the result's axes hand down, and at `0` on the operand's unit axes.
-/
import Idealize.ShloMosaic.Lib.Pipeline.Value
import Idealize.ShloMosaic.Lib.ValueIdx

namespace Idealize.ShloMosaic.ValueIdx

open Idealize.ShloMosaic

variable {α : Type}

/-- A scalar spread over a shape reads the scalar everywhere. -/
theorem bcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A length-`a` vector as the column `[a, 1]`: at `(i, z)` it reads the vector at `i`. -/
theorem bcastInDim_a_a1_apply {a : ℕ} (h : (⟨1, ![a]⟩ : Shape).BroadcastsInDim ⟨2, ![a, 1]⟩ (![0] : Fin 1 → Fin 2))
    (x : (⟨1, ![a]⟩ : Shape).Idx → α) (i : Fin a) (z : Fin 1) :
    broadcastInDim ⟨2, ![a, 1]⟩ (![0] : Fin 1 → Fin 2) h x (ix2 i z) = x (ix1 i) := by
  refine broadcastInDim_apply _ h x (ix2 i z) (ix1 i) fun ax => ?_
  match ax with
  | ⟨0, _⟩ =>
    show i.val = if a = 1 then 0 else i.val
    split
    · have := i.isLt; omega
    · rfl

/-- A column `[a, 1]` repeated to `[a, b]`: at `(i, j)` it reads the column at `(i, 0)`. -/
theorem bcastInDim_a1_ab_apply {a b : ℕ}
    (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A length-`b` vector as the row `[1, b]`: at `(z, j)` it reads the vector at `j`. -/
theorem bcastInDim_b_1b_apply {b : ℕ} (h : (⟨1, ![b]⟩ : Shape).BroadcastsInDim ⟨2, ![1, b]⟩ (![1] : Fin 1 → Fin 2))
    (x : (⟨1, ![b]⟩ : Shape).Idx → α) (z : Fin 1) (j : Fin b) :
    broadcastInDim ⟨2, ![1, b]⟩ (![1] : Fin 1 → Fin 2) h x (ix2 z j) = x (ix1 j) := by
  refine broadcastInDim_apply _ h x (ix2 z j) (ix1 j) fun ax => ?_
  match ax with
  | ⟨0, _⟩ =>
    show j.val = if b = 1 then 0 else j.val
    split
    · have := j.isLt; omega
    · rfl

/-- A row `[1, b]` repeated to `[a, b]`: at `(i, j)` it reads the row at `(0, j)`. -/
theorem bcastInDim_1b_ab_apply {a b : ℕ}
    (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl

end Idealize.ShloMosaic.ValueIdx
-- ==== Proof.RefValue.lean ====
/-
  The reference's two results, at the ideal instance, are the specification's `Zf` and `Af ∘ Zf` of its arguments.

  Operation by operation: each host matrix product is the specification's product (its entry the sum over the shared
  axis), a maximum with the zero splat is the clamp at zero, the host transpose is the transpose, and
  1 / (1 + exp(−x)) with the two splats of one is the logistic function.
-/
import proofs.«169699_j12910671692500_1_alg».proof.Proof.Gen.ReferenceIdeal.Read
import proofs.«169699_j12910671692500_1_alg».proof.Proof.Spec
import proofs.«169699_j12910671692500_1_alg».proof.Proof.LibHostMatDot
import proofs.«169699_j12910671692500_1_alg».proof.Proof.LibBcastInDim
import Idealize.ShloMosaic.Lib.ValueIdx
import Idealize.ShloMosaic.Lib.ValueLayout
import Idealize.ShloMosaic.PureOps.Ideal.Laws

noncomputable section

open scoped BigOperators

namespace Cert.ReferenceIdeal.RefValue

open Cert.ReferenceIdeal Cert.ReferenceIdeal.Read Cert.ReferenceIdeal.Gen
open Idealize.ShloMosaic Idealize.ShloMosaic.ValueIdx

/-- The host product over `dot_S8192x512_S512x32_S8192x32_1_0_0_1_n_n` is the matrix product. -/
theorem prod0 (x : FVec Ideal S8192x512 .f32) (y : FVec Ideal S512x32 .f32) :
    Host.dotGeneral dot_S8192x512_S512x32_S8192x32_1_0_0_1_n_n none x y = Gcn.mm x y := by
  funext j
  obtain ⟨p, q, rfl⟩ : ∃ (p : Fin 8192) (q : Fin 32), j = ix2 p q := ⟨j 0, j 1, eq_ix2 j⟩
  rw [Gcn.mm_apply]
  exact host_mat_dot dot_S8192x512_S512x32_S8192x32_1_0_0_1_n_n none rfl rfl lhs_main_v0_0 lhs_main_v0_1 rhs_main_v0_0 rhs_main_v0_1 x y p q

/-- The host product over `dot_S8192x8192_S8192x32_S8192x32_1_0_0_1_n_n` is the matrix product. -/
theorem prod1 (x : FVec Ideal S8192x8192 .f32) (y : FVec Ideal S8192x32 .f32) :
    Host.dotGeneral dot_S8192x8192_S8192x32_S8192x32_1_0_0_1_n_n none x y = Gcn.mm x y := by
  funext j
  obtain ⟨p, q, rfl⟩ : ∃ (p : Fin 8192) (q : Fin 32), j = ix2 p q := ⟨j 0, j 1, eq_ix2 j⟩
  rw [Gcn.mm_apply]
  exact host_mat_dot dot_S8192x8192_S8192x32_S8192x32_1_0_0_1_n_n none rfl rfl lhs_main_v1_0 lhs_main_v1_1 rhs_main_v1_0 rhs_main_v1_1 x y p q

/-- The host product over `dot_S8192x32_S32x16_S8192x16_1_0_0_1_n_n` is the matrix product. -/
theorem prod3 (x : FVec Ideal S8192x32 .f32) (y : FVec Ideal S32x16 .f32) :
    Host.dotGeneral dot_S8192x32_S32x16_S8192x16_1_0_0_1_n_n none x y = Gcn.mm x y := by
  funext j
  obtain ⟨p, q, rfl⟩ : ∃ (p : Fin 8192) (q : Fin 16), j = ix2 p q := ⟨j 0, j 1, eq_ix2 j⟩
  rw [Gcn.mm_apply]
  exact host_mat_dot dot_S8192x32_S32x16_S8192x16_1_0_0_1_n_n none rfl rfl lhs_main_v3_0 lhs_main_v3_1 rhs_main_v3_0 rhs_main_v3_1 x y p q

/-- The host product over `dot_S8192x8192_S8192x16_S8192x16_1_0_0_1_n_n` is the matrix product. -/
theorem prod4 (x : FVec Ideal S8192x8192 .f32) (y : FVec Ideal S8192x16 .f32) :
    Host.dotGeneral dot_S8192x8192_S8192x16_S8192x16_1_0_0_1_n_n none x y = Gcn.mm x y := by
  funext j
  obtain ⟨p, q, rfl⟩ : ∃ (p : Fin 8192) (q : Fin 16), j = ix2 p q := ⟨j 0, j 1, eq_ix2 j⟩
  rw [Gcn.mm_apply]
  exact host_mat_dot dot_S8192x8192_S8192x16_S8192x16_1_0_0_1_n_n none rfl rfl lhs_main_v4_0 lhs_main_v4_1 rhs_main_v4_0 rhs_main_v4_1 x y p q

/-- The host product over `dot_S8192x16_S16x8192_S8192x8192_1_0_0_1_n_n` is the matrix product. -/
theorem prod7 (x : FVec Ideal S8192x16 .f32) (y : FVec Ideal S16x8192 .f32) :
    Host.dotGeneral dot_S8192x16_S16x8192_S8192x8192_1_0_0_1_n_n none x y = Gcn.mm x y := by
  funext j
  obtain ⟨p, q, rfl⟩ : ∃ (p : Fin 8192) (q : Fin 8192), j = ix2 p q := ⟨j 0, j 1, eq_ix2 j⟩
  rw [Gcn.mm_apply]
  exact host_mat_dot dot_S8192x16_S16x8192_S8192x8192_1_0_0_1_n_n none rfl rfl lhs_main_v7_0 lhs_main_v7_1 rhs_main_v7_0 rhs_main_v7_1 x y p q

/-- A maximum with the splat of `+0.0` clamps below at zero. -/
theorem clamp32 (x : FVec Ideal S8192x32 .f32) :
    maximumf x (broadcastInDim S8192x32 ![] bcast_S_S8192x32 (constant (F := Ideal) S_ .f32 0x00000000#32)) = Gcn.relu x := by
  funext j
  show max (x j) (broadcastInDim S8192x32 ![] bcast_S_S8192x32 (constant (F := Ideal) S_ .f32 0x00000000#32) j) = max (x j) 0
  rw [bcastInDim_scalar_apply, constant_apply, Ideal.ofBits_zero_f32]

theorem clamp16 (x : FVec Ideal S8192x16 .f32) :
    maximumf x (broadcastInDim S8192x16 ![] bcast_S_S8192x16 (constant (F := Ideal) S_ .f32 0x00000000#32)) = Gcn.relu x := by
  funext j
  show max (x j) (broadcastInDim S8192x16 ![] bcast_S_S8192x16 (constant (F := Ideal) S_ .f32 0x00000000#32) j) = max (x j) 0
  rw [bcastInDim_scalar_apply, constant_apply, Ideal.ofBits_zero_f32]

/-- The host transpose is the transpose. -/
theorem transp (x : FVec Ideal S8192x16 .f32) :
    transpose S16x8192 [1, 0] x transposes_S8192x16_S16x8192_1_0 = Gcn.tr x := by
  funext j
  obtain ⟨p, q, rfl⟩ : ∃ (p : Fin 16) (q : Fin 8192), j = ix2 p q := ⟨j 0, j 1, eq_ix2 j⟩
  rw [Gcn.tr_apply]
  exact transpose_ix2_apply x transposes_S8192x16_S16x8192_1_0 p q

/-- `1 / (1 + exp(−x))`, the ones splats of `1.0`, is the logistic function. -/
theorem logist (x : FVec Ideal S8192x8192 .f32) :
    Host.divf (broadcastInDim S8192x8192 ![] bcast_S_S8192x8192 (constant (F := Ideal) S_ .f32 0x3F800000#32))
      (addf (broadcastInDim S8192x8192 ![] bcast_S_S8192x8192 (constant (F := Ideal) S_ .f32 0x3F800000#32)) (Host.exp (Host.negf x)))
      = Gcn.sig x := by
  funext j
  simp only [Host.divf, Host.exp, Host.negf, addf, Gcn.sig, Ideal.logistic, bcastInDim_scalar_apply, constant_apply, Gcn.ofBits_one,
    Ideal.hostDivf_def, Ideal.addf_def, Ideal.hostUnary_exp_def, Ideal.hostNegf_def, Ideal.negf_def]

/-- The reference's first result is `Zf` of its arguments. -/
theorem ref_Z (X : FVec Ideal S8192x512 .f32) (A : FVec Ideal S8192x8192 .f32) (W1 : FVec Ideal S512x32 .f32) (W2 : FVec Ideal S32x16 .f32) :
    maximumf (Host.dotGeneral dot_S8192x8192_S8192x16_S8192x16_1_0_0_1_n_n none A (Host.dotGeneral dot_S8192x32_S32x16_S8192x16_1_0_0_1_n_n none (maximumf (Host.dotGeneral dot_S8192x8192_S8192x32_S8192x32_1_0_0_1_n_n none A (Host.dotGeneral dot_S8192x512_S512x32_S8192x32_1_0_0_1_n_n none X W1)) (broadcastInDim S8192x32 ![] bcast_S_S8192x32 (constant (F := Ideal) S_ .f32 0x00000000#32))) W2)) (broadcastInDim S8192x16 ![] bcast_S_S8192x16 (constant (F := Ideal) S_ .f32 0x00000000#32))
      = Gcn.Zf X A W1 W2 := by
  rw [prod0, prod1, clamp32, prod3, prod4, clamp16]
  rfl

/-- The reference's second result is `Af` of a matrix `Z` when its first is `Z`. -/
theorem ref_A (Z : FVec Ideal S8192x16 .f32) :
    Host.divf (broadcastInDim S8192x8192 ![] bcast_S_S8192x8192 (constant (F := Ideal) S_ .f32 0x3F800000#32)) (addf (broadcastInDim S8192x8192 ![] bcast_S_S8192x8192 (constant (F := Ideal) S_ .f32 0x3F800000#32)) (Host.exp (Host.negf (Host.dotGeneral dot_S8192x16_S16x8192_S8192x8192_1_0_0_1_n_n none Z (transpose S16x8192 [1, 0] Z transposes_S8192x16_S16x8192_1_0)))))
      = Gcn.Af Z := by
  rw [transp, prod7, logist]
  rfl

end Cert.ReferenceIdeal.RefValue

end
-- ==== Proof.lean ====
/-
  A two-layer graph convolution with a dot-product decoder,

      h = relu(adj · (X · W1)),   Z = relu(adj · (h · W2)),   A = logistic(Z · Zᵀ),

  computed by five tiled matrix kernels in sequence, against the same formulas written with whole-array operations.

  Over the extended reals the two agree entry by entry without any use of finiteness: a tiled product's entry is the
  same sum over the shared axis as the whole product's (the tiling only decides which grid point writes which rows),
  the clamp at zero and the logistic function act entry by entry, and the kernel's logistic is by definition
  1 / (1 + e^(−x)), which is what the reference spells out. So both programs' results are the specification's `Zf`
  and `Af ∘ Zf` of the argument arrays (Proof/Spec.lean), the kernel's by composing what each of its five regions
  leaves in its result array (Proof/Ideal/Result.lean), the reference's operation by operation (Proof/RefValue.lean).

  The frames: every region runs to its end at every grid point and writes only its own result array, so the argument
  arrays end as launched, at the word-level instance and at the ideal one alike (Proof/Bits/Run.lean,
  Proof/Ideal/Run.lean: the same argument at both instances). The last region reads Z through two windows; its proof
  data hold Z's array at two half shares (Proof/Ideal/SharedOperand.lean). The idealization changed no operation, so
  there is nothing to preserve.
-/
import proofs.«169699_j12910671692500_1_alg».proof.Defs
import proofs.«169699_j12910671692500_1_alg».proof.Proof.Gen.Kernel
import proofs.«169699_j12910671692500_1_alg».proof.Proof.Gen.KernelIdeal
import proofs.«169699_j12910671692500_1_alg».proof.Proof.Gen.ReferenceIdeal
import proofs.«169699_j12910671692500_1_alg».proof.Proof.Gen.ReferenceIdeal.Run
import proofs.«169699_j12910671692500_1_alg».proof.Proof.Gen.ReferenceIdeal.Read
import proofs.«169699_j12910671692500_1_alg».proof.Proof.Gen.Pre_finite_inputs
import proofs.«169699_j12910671692500_1_alg».proof.Proof.Bits.Run
import proofs.«169699_j12910671692500_1_alg».proof.Proof.Ideal.Result
import proofs.«169699_j12910671692500_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to its end and leaves its arguments as launched. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference is a line of host operations, none of which writes an argument. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end with `Zf` of the arguments in the first result and `Af` of that in the second. -/
theorem algebraic : Cert.algebraic_KernelIdeal_ReferenceIdeal := by
  intro m ρ m' ρ' _ hagree
  refine ⟨fun c => Gcn.Zf (Cert.KernelIdeal.Hand.aX m c) (Cert.KernelIdeal.Hand.aAdj m c) (Cert.KernelIdeal.Hand.aW1 m c) (Cert.KernelIdeal.Hand.aW2 m c),
    fun c => Gcn.Af (Gcn.Zf (Cert.KernelIdeal.Hand.aX m c) (Cert.KernelIdeal.Hand.aAdj m c) (Cert.KernelIdeal.Hand.aW1 m c) (Cert.KernelIdeal.Hand.aW2 m c)),
    Cert.KernelIdeal.Hand.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact Cert.ReferenceIdeal.RefValue.ref_Z _ _ _ _
  · rw [(hagree c).1, (hagree c).2.1, (hagree c).2.2.1, (hagree c).2.2.2, Cert.ReferenceIdeal.RefValue.ref_Z]
    exact Cert.ReferenceIdeal.RefValue.ref_A _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
